-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16384x1024 : Shape := ⟨2, ![16384, 1024]⟩
abbrev S4096x16384 : Shape := ⟨2, ![4096, 16384]⟩
abbrev S16384 : Shape := ⟨1, ![16384]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4096x1024 .f32) (main_arg1 : FVec F S16384x1024 .f32) (main_arg2 : FVec F S4096x16384 .f32) (main_arg3 : FVec F S16384 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4096x1024 : Shape := ⟨2, ![4096, 1024]⟩
abbrev S16384x1024 : Shape := ⟨2, ![16384, 1024]⟩
abbrev S4096x16384 : Shape := ⟨2, ![4096, 16384]⟩
abbrev S16384 : Shape := ⟨1, ![16384]⟩
abbrev S1x16384 : Shape := ⟨2, ![1, 16384]⟩
abbrev S4x8x128 : Shape := ⟨3, ![4, 8, 128]⟩
abbrev S1024x1024 : Shape := ⟨2, ![1024, 1024]⟩
abbrev S1x1024 : Shape := ⟨2, ![1, 1024]⟩
abbrev S1x8x128 : Shape := ⟨3, ![1, 8, 128]⟩
abbrev S8x128 : Shape := ⟨2, ![8, 128]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x16384, .f32⟩
  | .hbm, ⟨3, _⟩ => ⟨S16384, .f32⟩
  | .hbm, ⟨4, _⟩ => ⟨S4096x1024, .bf16⟩
  | .hbm, ⟨5, _⟩ => ⟨S16384x1024, .bf16⟩
  | .hbm, ⟨6, _⟩ => ⟨S1x16384, .f32⟩
  | .hbm, ⟨7, _⟩ => ⟨S4x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x8x128, .f32⟩
  | .local _ .vmem, ⟨9, _⟩ => ⟨S1x8x128, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S16384_S1x16384 : S16384.ShapeCasts S1x16384
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  broadcasts_S1x1024_S1024x1024 : S1x1024.Broadcasts S1024x1024
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  reducesTo_S4x8x128_S_d0_1_2 : S4x8x128.ReducesTo [0, 1, 2] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .bf16 = 32 ∨ (Rect.block (s := S16384x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x16384.size a
  hwx0_2 : ∀ i : grid0.Coords, EltTy.bits .f32 = 32 ∨ (Rect.block (s := S4096x16384) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S16384x1024 : Shape := ⟨2, ![16384, 1024]⟩
abbrev S4096x16384 : Shape := ⟨2, ![4096, 16384]⟩
abbrev S16384 : Shape := ⟨1, ![16384]⟩
abbrev S1x16384 : Shape := ⟨2, ![1, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x16384, .f32⟩
  | .hbm, ⟨3, _⟩ => ⟨S16384, .f32⟩
  | .hbm, ⟨4, _⟩ => ⟨S4096x16384, .f32⟩
  | .hbm, ⟨5, _⟩ => ⟨S1x16384, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S_d0_1 : S4096x16384.ReducesTo [0, 1] S_
  h_S_ : 0 < S_.numel
  dot_S4096x1024_S16384x1024_S4096x16384_1_1_0_0_n_n_wf : DotDims.WF S4096x1024 S16384x1024 S4096x16384 [1] [1] [0] [0] [] []

variable [Facts₀]

def dot_S4096x1024_S16384x1024_S4096x16384_1_1_0_0_n_n : DotDims S4096x1024 S16384x1024 S4096x16384 where
  lhsContracting := [1]
  rhsContracting := [1]
  lhsNonContracting := [0]
  rhsNonContracting := [0]
  lhsBatch := []
  rhsBatch := []
  wf := dot_S4096x1024_S16384x1024_S4096x16384_1_1_0_0_n_n_wf

class Facts : Prop extends Facts₀ where

variable [Facts]
-- ==== Proof.KernelRuns.lean ====
/-
  The kernel body run once in each of its three control cases, on whole staging buffers.

  A grid point (i, j) of the 4 x 16 grid is in the FIRST case when j = 0 (the accumulator and the output block are
  zeroed before the block's column sums are added), in the LAST case when j = 15 (after adding, the accumulator's
  lanes are summed into entry (0,0,0) of the output block, whose other entries are kept), and in the MIDDLE case
  otherwise (only the accumulator is updated; the output block is not touched).  Each run hands the four input
  buffers back as found and says what the accumulator and the output block hold afterwards, as the list of the
  rectangles the body stored, last store first.
-/
import proofs.«115720_j51848845197512_2_alg».proof.Proof.Gen.Kernel.Launch
import proofs.«115720_j51848845197512_2_alg».proof.Proof.Gen.Kernel.Skeleton
import proofs.«115720_j51848845197512_2_alg».proof.Proof.Gen.Kernel.Points
import proofs.«115720_j51848845197512_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row of blocks (column block 0). -/
abbrev isFirst (i : grid0.Coords) : Prop := k0_cond1 i = 1#1
/-- The point is the last of its row of blocks (column block 15). -/
abbrev isLast (i : grid0.Coords) : Prop := k0_cond2 i = 1#1

set_option maxHeartbeats 1000000 in
/-- FIRST case: the accumulator ends at two stored rectangles (the zero splat, then the update), the output block at
    one (the zero splat); both buffers may hold anything beforehand. -/
noncomputable def runFirst (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : isFirst i) (hc1 : ¬isLast i)
    (x0 : Vec F S1024x1024 .bf16) (x1 : Vec F S1024x1024 .bf16) (x2 : Vec F S1024x1024 .f32) (x3 : Vec F S1x1024 .f32) :
    { L : List (View.Piece (Elt F) S1x8x128 .f32) × List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨⟨?_, ?_⟩, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 1000000 in
/-- MIDDLE case: the accumulator, found at `a`, ends at one stored rectangle (the update); the output block's buffer is
    not among the buffers the run uses. -/
noncomputable def runMiddle (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : ¬isFirst i) (hc1 : ¬isLast i)
    (x0 : Vec F S1024x1024 .bf16) (x1 : Vec F S1024x1024 .bf16) (x2 : Vec F S1024x1024 .f32) (x3 : Vec F S1x1024 .f32) (a : Vec F S1x1024 .f32) :
    { L : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨?_, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- LAST case: the accumulator, found at `a`, ends at one stored rectangle (the update); the output block, found at
    `o`, ends at `o` overwritten by one stored rectangle (the single entry (0,0,0)). -/
noncomputable def runLast (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : ¬isFirst i) (hc1 : isLast i)
    (x0 : Vec F S1024x1024 .bf16) (x1 : Vec F S1024x1024 .bf16) (x2 : Vec F S1024x1024 .f32) (x3 : Vec F S1x1024 .f32) (a : Vec F S1x1024 .f32) (o : Vec F S1x8x128 .f32) :
    { L : List (View.Piece (Elt F) S1x8x128 .f32) × List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread o) L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨⟨?_, ?_⟩, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    iexists _; iexact HS0

end Cert.Kernel.Body

end
-- ==== Proof.KernelFrame.lean ====
/-
  The frame of the kernel's one region, with what it leaves named.

  The grid is 4 x 16, point t = 16 * i + j.  Over a row i of blocks the accumulator (a scratch buffer carried from
  point to point) and the output block's staging buffer evolve as follows: at j = 0 both are overwritten (the FIRST
  case); at 0 < j < 15 only the accumulator is (the MIDDLE case: the output block's buffer is idle and keeps the zeros
  stored at j = 0); at j = 15 the accumulator is updated and one entry of the output block is stored over those
  zeros (the LAST case), after which the block is written back to row i of the output array.  `stAt` is that state
  after each point, by recursion on the point; the proof data names the output block's buffer by it, the invariant
  carries the accumulator at it, and the body obligation is the three runs, one per case.
-/
import proofs.«115720_j51848845197512_2_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases over the grid -/

/-- A point is the first of its row of blocks exactly when its position is a multiple of 16. -/
theorem first_iff : ∀ t : Fin cfg0.N, isFirst (grid0.coords t) ↔ t.val % 16 = 0 :=
  (by decide +kernel : ∀ t : Fin grid0.N, isFirst (grid0.coords t) ↔ t.val % 16 = 0)
/-- A point is the last of its row of blocks exactly when its position is 15 modulo 16. -/
theorem last_iff : ∀ t : Fin cfg0.N, isLast (grid0.coords t) ↔ t.val % 16 = 15 :=
  (by decide +kernel : ∀ t : Fin grid0.N, isLast (grid0.coords t) ↔ t.val % 16 = 15)

/-- The input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly at the middle points. -/
theorem idle4_iff : ∀ t : Fin cfg0.N, cfg0.idle 4 (grid0.coords t) = true ↔ (¬t.val % 16 = 0 ∧ ¬t.val % 16 = 15) :=
  (by decide +kernel : ∀ t : Fin grid0.N, cfg0.idle 4 (grid0.coords t) = true ↔ (¬t.val % 16 = 0 ∧ ¬t.val % 16 = 15))

/-! ## The buffers the body is called on -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The accumulator: the kernel's scratch buffer, whole. -/
abbrev scM : Memref sig .tc .vmem S1x1024 .f32 := Memref.whole cc0_scratch0
abbrev hscM : (scM : Memref sig .tc .vmem S1x1024 .f32).IsWhole := Memref.isWhole_whole _

/-- Between regions the accumulator is owned at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves, at a point -/

section AtPoint
variable (c : Dev nD) (t : Fin cfg0.N)

/-- FIRST case at `t`: the rectangles stored into the output block's buffer and into the accumulator. -/
def firstRun (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t)
/-- MIDDLE case at `t`, the accumulator found at `a`. -/
def middleRun (h0 : ¬isFirst (grid0.coords t)) (h1 : ¬isLast (grid0.coords t)) (a : Vec F S1x1024 .f32) :=
  runMiddle (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t) a
/-- LAST case at `t`, the accumulator found at `a` and the output block's buffer at `o`. -/
def lastRun (h0 : ¬isFirst (grid0.coords t)) (h1 : isLast (grid0.coords t)) (a : Vec F S1x1024 .f32) (o : Vec F S1x8x128 .f32) :=
  runLast (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t) a o

/-- The stored rectangles cover the buffers (each store is of the whole buffer). -/
theorem firstOut_cover (h0 : isFirst (grid0.coords t)) (h1 : ¬isLast (grid0.coords t)) (y : S1x8x128.Idx) : ∃ pc ∈ (firstRun m c t h0 h1).1.1, y ∈ pc.1.set :=
  View.cover_of_tiledL (firstRun m c t h0 h1).1.1 S1x8x128.size (by unfold firstRun; sl_kernel_rfl) y
theorem firstAcc_cover (h0 : isFirst (grid0.coords t)) (h1 : ¬isLast (grid0.coords t)) (y : S1x1024.Idx) : ∃ pc ∈ (firstRun m c t h0 h1).1.2, y ∈ pc.1.set :=
  View.cover_of_tiledL (firstRun m c t h0 h1).1.2 S1x1024.size (by unfold firstRun; sl_kernel_rfl) y
theorem middleAcc_cover (h0 : ¬isFirst (grid0.coords t)) (h1 : ¬isLast (grid0.coords t)) (a : Vec F S1x1024 .f32) (y : S1x1024.Idx) : ∃ pc ∈ (middleRun m c t h0 h1 a).1, y ∈ pc.1.set :=
  View.cover_of_tiledL (middleRun m c t h0 h1 a).1 S1x1024.size (by unfold middleRun; sl_kernel_rfl) y
theorem lastAcc_cover (h0 : ¬isFirst (grid0.coords t)) (h1 : isLast (grid0.coords t)) (a : Vec F S1x1024 .f32) (o : Vec F S1x8x128 .f32) (y : S1x1024.Idx) : ∃ pc ∈ (lastRun m c t h0 h1 a o).1.2, y ∈ pc.1.set :=
  View.cover_of_tiledL (lastRun m c t h0 h1 a o).1.2 S1x1024.size (by unfold lastRun; sl_kernel_rfl) y

/-- What the cases leave: the stored rectangles read back (over anything where they cover the buffer, over the contents
    found for the output block in the last case, whose one store does not cover it). -/
def outFirst (h0 : isFirst (grid0.coords t)) (h1 : ¬isLast (grid0.coords t)) : Vec F S1x8x128 .f32 :=
  (ms4 t).view.read (Elt F) ((ms4 t).view.writes (Elt F) (ms4 t).view.junk (firstRun m c t h0 h1).1.1)
def accFirst (h0 : isFirst (grid0.coords t)) (h1 : ¬isLast (grid0.coords t)) : Vec F S1x1024 .f32 :=
  (scM).view.read (Elt F) ((scM).view.writes (Elt F) (scM).view.junk (firstRun m c t h0 h1).1.2)
def accMiddle (h0 : ¬isFirst (grid0.coords t)) (h1 : ¬isLast (grid0.coords t)) (a : Vec F S1x1024 .f32) : Vec F S1x1024 .f32 :=
  (scM).view.read (Elt F) ((scM).view.writes (Elt F) (scM).view.junk (middleRun m c t h0 h1 a).1)
def outLast (h0 : ¬isFirst (grid0.coords t)) (h1 : isLast (grid0.coords t)) (a : Vec F S1x1024 .f32) (o : Vec F S1x8x128 .f32) : Vec F S1x8x128 .f32 :=
  (ms4 t).view.read (Elt F) ((ms4 t).view.writes (Elt F) ((hs4 t).unread o) (lastRun m c t h0 h1 a o).1.1)
def accLast (h0 : ¬isFirst (grid0.coords t)) (h1 : isLast (grid0.coords t)) (a : Vec F S1x1024 .f32) (o : Vec F S1x8x128 .f32) : Vec F S1x1024 .f32 :=
  (scM).view.read (Elt F) ((scM).view.writes (Elt F) (scM).view.junk (lastRun m c t h0 h1 a o).1.2)

end AtPoint

/-! ## The state after each point -/

/-- After position `n`: what the output block's buffer holds (first component) and what the accumulator holds (second). -/
def stAt (c : Dev nD) : (n : ℕ) → n < cfg0.N → Vec F S1x8x128 .f32 × Vec F S1x1024 .f32
  | 0, hn =>
    (outFirst m c ⟨0, hn⟩ ((first_iff ⟨0, hn⟩).mpr (Nat.zero_mod _)) (fun h => by have := (last_iff ⟨0, hn⟩).mp h; (try dsimp only at this); omega),
     accFirst m c ⟨0, hn⟩ ((first_iff ⟨0, hn⟩).mpr (Nat.zero_mod _)) (fun h => by have := (last_iff ⟨0, hn⟩).mp h; (try dsimp only at this); omega))
  | n + 1, hn =>
    if h0 : (n + 1) % 16 = 0 then
      (outFirst m c ⟨n + 1, hn⟩ ((first_iff ⟨n + 1, hn⟩).mpr h0) (fun h => by have := (last_iff ⟨n + 1, hn⟩).mp h; (try dsimp only at this); omega),
       accFirst m c ⟨n + 1, hn⟩ ((first_iff ⟨n + 1, hn⟩).mpr h0) (fun h => by have := (last_iff ⟨n + 1, hn⟩).mp h; (try dsimp only at this); omega))
    else if h1 : (n + 1) % 16 = 15 then
      (outLast m c ⟨n + 1, hn⟩ (fun h => h0 ((first_iff ⟨n + 1, hn⟩).mp h)) ((last_iff ⟨n + 1, hn⟩).mpr h1) (stAt c n (Nat.lt_of_succ_lt hn)).2 (stAt c n (Nat.lt_of_succ_lt hn)).1,
       accLast m c ⟨n + 1, hn⟩ (fun h => h0 ((first_iff ⟨n + 1, hn⟩).mp h)) ((last_iff ⟨n + 1, hn⟩).mpr h1) (stAt c n (Nat.lt_of_succ_lt hn)).2 (stAt c n (Nat.lt_of_succ_lt hn)).1)
    else
      ((stAt c n (Nat.lt_of_succ_lt hn)).1,
       accMiddle m c ⟨n + 1, hn⟩ (fun h => h0 ((first_iff ⟨n + 1, hn⟩).mp h)) (fun h => h1 ((last_iff ⟨n + 1, hn⟩).mp h)) (stAt c n (Nat.lt_of_succ_lt hn)).2)

theorem stAt_first (c : Dev nD) (t : Fin cfg0.N) (h0 : t.val % 16 = 0) (h1 : ¬t.val % 16 = 15) :
    stAt m c t.val t.isLt = (outFirst m c t ((first_iff t).mpr h0) (fun h => h1 ((last_iff t).mp h)), accFirst m c t ((first_iff t).mpr h0) (fun h => h1 ((last_iff t).mp h))) := by
  obtain ⟨n, hn⟩ := t
  cases n with
  | zero => rfl
  | succ n => exact (dif_pos h0).trans rfl

theorem stAt_last (c : Dev nD) (t : Fin cfg0.N) (h0 : ¬t.val % 16 = 0) (h1 : t.val % 16 = 15) :
    stAt m c t.val t.isLt
      = (outLast m c t (fun h => h0 ((first_iff t).mp h)) ((last_iff t).mpr h1) (stAt m c (t.val - 1) (Nat.lt_of_le_of_lt (Nat.sub_le _ _) t.isLt)).2 (stAt m c (t.val - 1) (Nat.lt_of_le_of_lt (Nat.sub_le _ _) t.isLt)).1,
         accLast m c t (fun h => h0 ((first_iff t).mp h)) ((last_iff t).mpr h1) (stAt m c (t.val - 1) (Nat.lt_of_le_of_lt (Nat.sub_le _ _) t.isLt)).2 (stAt m c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

theorem stAt_middle (c : Dev nD) (t : Fin cfg0.N) (h0 : ¬t.val % 16 = 0) (h1 : ¬t.val % 16 = 15) :
    stAt m c t.val t.isLt
      = ((stAt m c (t.val - 1) (Nat.lt_of_le_of_lt (Nat.sub_le _ _) t.isLt)).1,
         accMiddle m c t (fun h => h0 ((first_iff t).mp h)) (fun h => h1 ((last_iff t).mp h)) (stAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- The invariant before position `n`: before the first point the accumulator holds anything; afterwards what the point
    before left in it. -/
def PhiS (c : Dev nD) : (n : ℕ) → n ≤ cfg0.N → sProp 𝕄
  | 0, _ => Pipeline.ΦA spec0 c
  | n + 1, hn => iprop(iprop(owns (c : Thread nD τ) scM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((stAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((stAt m c (n - 1) (by omega)).2)) ∗ (∃ r, prngReg c r)) := by
  cases n with
  | zero => exact absurd rfl hz
  | succ n => rfl

/-! ## The proof data -/

/-- On core `c`: the arrays as the region finds them; after the body each input's buffer at its block and the output
    block's buffer at `stAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (stAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The output window's blocks are never cut. -/
theorem clip4 : ∀ (i : cfg0.grid.Coords) a, (cfg0.win 4).clip i a = none := fun _ _ => rfl

/-- What the body finds in the output block's buffer at a point that is not the first of its row: what the point
    before left there — through the middle points, where the buffer is idle, the contents stored at the row's first
    point.  By induction on the position. -/
theorem before_4 (c : Dev nD) : ∀ (n : ℕ) (hn : n < cfg0.N), ¬n % 16 = 0 → ∀ d,
    (dats m 0 c).before 4 ⟨n, hn⟩ d = (stAt m c (n - 1) (Nat.lt_of_le_of_lt (Nat.sub_le _ _) hn)).1
  | 0, _, h, _ => absurd (Nat.zero_mod _) h
  | n + 1, hn, h, d => by
    have hN : n + 1 < 64 := lt_of_lt_of_eq hn (show cfg0.N = 64 from N_0)
    have hn' : n < cfg0.N := Nat.lt_of_succ_lt hn
    rw [(dats m 0 c).before_of_pos 4 ⟨n + 1, hn⟩ (Nat.succ_ne_zero n) ((cfg0.win 4).fetch_out rfl _)]
    have hfl : (cfg0.win 4).flush ⟨n, hn'⟩ = false := by
      rw [Bool.eq_false_iff]; intro hf; have := (flush0_4 ⟨n, hn'⟩).mp hf; (try dsimp only at this); omega
    show (if (cfg0.win 4).flush ⟨n, hn'⟩ = true then d else (dats m 0 c).left 4 ⟨n, hn'⟩ d) = (stAt m c n hn').1
    rw [hfl, if_neg Bool.false_ne_true]
    unfold Dat.left
    split
    · next hi =>
      have hmid := (idle4_iff ⟨n, hn'⟩).mp hi
      rw [before_4 c n hn' hmid.1 d, stAt_middle m c ⟨n, hn'⟩ hmid.1 hmid.2]
    · next hi =>
      unfold Dat.kept
      rw [Pipeline.fill_of_clip_none (cfg := cfg0) (4 : Fin cfg0.W) _ (clip4 _) d ((dats m 0 c).after 4 ⟨n, hn'⟩), Window.fill_cut, after_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by cases on the position modulo 16, the case's run, the accumulator taken from and returned
    to the invariant, the output block's buffer stored whole (first), left alone (middle) or found at what the first
    point of the row stored and overwritten in one entry (last). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  by_cases h0 : t.val % 16 = 0
  · have h1 : ¬t.val % 16 = 15 := by omega
    have hi : cfg0.idle 4 (cfg0.grid.coords t) = false :=
      Bool.eq_false_iff.mpr fun h => ((idle4_iff t).mp h).1 h0
    rw [show (dats m 0 c).leavesExact 4 t = owns (c : Thread nD τ) (ms4 t) fullShare ((dats m 0 c).after 4 t) from by
      unfold Dat.leavesExact; rw [hi], after_4]
    rw [stAt_first m c t h0 h1]
    dsimp only
    unfold outFirst accFirst
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩⟩
      iapply ((firstRun m c t ((first_iff t).mpr h0) (fun h => h1 ((last_iff t).mp h))).2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (firstAcc_cover m c t _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (firstOut_cover m c t _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((firstRun m c t ((first_iff t).mpr h0) (fun h => h1 ((last_iff t).mp h))).2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (firstAcc_cover m c t _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (firstOut_cover m c t _ _)
  · have hz : t.val ≠ 0 := fun h => h0 (by rw [h])
    rw [PhiS_castSucc m c t, PhiS_pos m c _ _ hz]
    by_cases h1 : t.val % 16 = 15
    · have hi : cfg0.idle 4 (cfg0.grid.coords t) = false :=
        Bool.eq_false_iff.mpr fun h => ((idle4_iff t).mp h).2 h1
      rw [show (dats m 0 c).leavesExact 4 t = owns (c : Thread nD τ) (ms4 t) fullShare ((dats m 0 c).after 4 t) from by
        unfold Dat.leavesExact; rw [hi], after_4]
      simp only [before_4 m c t.val t.isLt h0]
      rw [stAt_last m c t h0 h1]
      dsimp only
      unfold outLast accLast
      iintro ⟨⟨HS0, Hg⟩, Ho, ⟨%d0, H0⟩, ⟨%d1, H1⟩, ⟨%d2, H2⟩, ⟨%d3, H3⟩, ⟨%d4, H4⟩⟩
      iapply ((lastRun m c t (fun h => h0 ((first_iff t).mp h)) ((last_iff t).mpr h1) _ _).2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (lastAcc_cover m c t _ _ _ _)
        iexact Hg
      isplitl [Ho]; · iexact Ho
      isplitl [H0]; · iexact H0
      isplitl [H1]; · iexact H1
      isplitl [H2]; · iexact H2
      isplitl [H3]; · iexact H3
      iapply (owns_intro _ _ _ _); iexact H4
    · have hi : cfg0.idle 4 (cfg0.grid.coords t) = true := (idle4_iff t).mpr ⟨h0, h1⟩
      have hfl : (cfg0.win 4).flush t = false := by
        rw [Bool.eq_false_iff]; intro hf; exact h1 ((flush0_4 t).mp hf)
      rw [(dats m 0 c).leavesExact_idle 4 t hi hfl]
      rw [stAt_middle m c t h0 h1]
      dsimp only
      unfold accMiddle
      iintro ⟨⟨HS0, Hg⟩, Ho, ⟨%d0, H0⟩, ⟨%d1, H1⟩, ⟨%d2, H2⟩, ⟨%d3, H3⟩, ⟨%d4, H4⟩⟩
      iapply ((middleRun m c t (fun h => h0 ((first_iff t).mp h)) (fun h => h1 ((last_iff t).mp h)) _).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (middleAcc_cover m c t _ _ _)
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS0, Hg⟩
  isplitl [HS0]
  · iexists _; iexact HS0
  iexact Hg

/-! ## The run -/

set_option backward.isDefEq.respectTransparency.types false in
/-- Every weakly fair execution of the program terminates; afterwards every array of the region holds what the proof
    data computes (an input its contents at entry, the output array its blocks as written back) and every other
    buffer what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealRuns.lean ====
/-
  The kernel body run once in each of its three control cases, on whole staging buffers.

  A grid point (i, j) of the 4 x 16 grid is in the FIRST case when j = 0 (the accumulator and the output block are
  zeroed before the block's column sums are added), in the LAST case when j = 15 (after adding, the accumulator's
  lanes are summed into entry (0,0,0) of the output block, whose other entries are kept), and in the MIDDLE case
  otherwise (only the accumulator is updated; the output block is not touched).  Each run hands the four input
  buffers back as found and says what the accumulator and the output block hold afterwards, as the list of the
  rectangles the body stored, last store first.
-/
import proofs.«115720_j51848845197512_2_alg».proof.Proof.Gen.KernelIdeal.Launch
import proofs.«115720_j51848845197512_2_alg».proof.Proof.Gen.KernelIdeal.Skeleton
import proofs.«115720_j51848845197512_2_alg».proof.Proof.Gen.KernelIdeal.Points
import proofs.«115720_j51848845197512_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row of blocks (column block 0). -/
abbrev isFirst (i : grid0.Coords) : Prop := k0_cond1 i = 1#1
/-- The point is the last of its row of blocks (column block 15). -/
abbrev isLast (i : grid0.Coords) : Prop := k0_cond2 i = 1#1

set_option maxHeartbeats 1000000 in
/-- FIRST case: the accumulator ends at two stored rectangles (the zero splat, then the update), the output block at
    one (the zero splat); both buffers may hold anything beforehand. -/
noncomputable def runFirst (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : isFirst i) (hc1 : ¬isLast i)
    (x0 : Vec F S1024x1024 .bf16) (x1 : Vec F S1024x1024 .bf16) (x2 : Vec F S1024x1024 .f32) (x3 : Vec F S1x1024 .f32) :
    { L : List (View.Piece (Elt F) S1x8x128 .f32) × List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨⟨?_, ?_⟩, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 1000000 in
/-- MIDDLE case: the accumulator, found at `a`, ends at one stored rectangle (the update); the output block's buffer is
    not among the buffers the run uses. -/
noncomputable def runMiddle (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : ¬isFirst i) (hc1 : ¬isLast i)
    (x0 : Vec F S1024x1024 .bf16) (x1 : Vec F S1024x1024 .bf16) (x2 : Vec F S1024x1024 .f32) (x3 : Vec F S1x1024 .f32) (a : Vec F S1x1024 .f32) :
    { L : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨?_, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- LAST case: the accumulator, found at `a`, ends at one stored rectangle (the update); the output block, found at
    `o`, ends at `o` overwritten by one stored rectangle (the single entry (0,0,0)). -/
noncomputable def runLast (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x8x128 .f32) (harg6 : arg6.IsWhole) (arg7 : Memref sig .tc .vmem S1x1024 .f32) (harg7 : arg7.IsWhole) (hc0 : ¬isFirst i) (hc1 : isLast i)
    (x0 : Vec F S1024x1024 .bf16) (x1 : Vec F S1024x1024 .bf16) (x2 : Vec F S1024x1024 .f32) (x3 : Vec F S1x1024 .f32) (a : Vec F S1x1024 .f32) (o : Vec F S1x8x128 .f32) :
    { L : List (View.Piece (Elt F) S1x8x128 .f32) × List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread o) L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__fused_mse_kernel i arg2 harg2 arg3 harg3 arg4 harg4 arg5 harg5 arg6 harg6 arg7 harg7) K } := by
  refine ⟨⟨?_, ?_⟩, fun E K => ?run⟩
  case run =>
    simp only [cc0__fused_mse_kernel_eq_skeleton]; unfold cc0__fused_mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    iexists _; iexact HS0

end Cert.KernelIdeal.Body

end
-- ==== Proof.KernelIdealFrame.lean ====
/-
  The frame of the kernel's one region, with what it leaves named.

  The grid is 4 x 16, point t = 16 * i + j.  Over a row i of blocks the accumulator (a scratch buffer carried from
  point to point) and the output block's staging buffer evolve as follows: at j = 0 both are overwritten (the FIRST
  case); at 0 < j < 15 only the accumulator is (the MIDDLE case: the output block's buffer is idle and keeps the zeros
  stored at j = 0); at j = 15 the accumulator is updated and one entry of the output block is stored over those
  zeros (the LAST case), after which the block is written back to row i of the output array.  `stAt` is that state
  after each point, by recursion on the point; the proof data names the output block's buffer by it, the invariant
  carries the accumulator at it, and the body obligation is the three runs, one per case.
-/
import proofs.«115720_j51848845197512_2_alg».proof.Proof.KernelIdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases over the grid -/

/-- A point is the first of its row of blocks exactly when its position is a multiple of 16. -/
theorem first_iff : ∀ t : Fin cfg0.N, isFirst (grid0.coords t) ↔ t.val % 16 = 0 :=
  (by decide +kernel : ∀ t : Fin grid0.N, isFirst (grid0.coords t) ↔ t.val % 16 = 0)
/-- A point is the last of its row of blocks exactly when its position is 15 modulo 16. -/
theorem last_iff : ∀ t : Fin cfg0.N, isLast (grid0.coords t) ↔ t.val % 16 = 15 :=
  (by decide +kernel : ∀ t : Fin grid0.N, isLast (grid0.coords t) ↔ t.val % 16 = 15)

/-- The input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly at the middle points. -/
theorem idle4_iff : ∀ t : Fin cfg0.N, cfg0.idle 4 (grid0.coords t) = true ↔ (¬t.val % 16 = 0 ∧ ¬t.val % 16 = 15) :=
  (by decide +kernel : ∀ t : Fin grid0.N, cfg0.idle 4 (grid0.coords t) = true ↔ (¬t.val % 16 = 0 ∧ ¬t.val % 16 = 15))

/-! ## The buffers the body is called on -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The accumulator: the kernel's scratch buffer, whole. -/
abbrev scM : Memref sig .tc .vmem S1x1024 .f32 := Memref.whole cc0_scratch0
abbrev hscM : (scM : Memref sig .tc .vmem S1x1024 .f32).IsWhole := Memref.isWhole_whole _

/-- Between regions the accumulator is owned at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves, at a point -/

section AtPoint
variable (c : Dev nD) (t : Fin cfg0.N)

/-- FIRST case at `t`: the rectangles stored into the output block's buffer and into the accumulator. -/
def firstRun (h0 : isFirst (grid0.coords t)) (h1 : ¬isLast (grid0.coords t)) :=
  runFirst (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t)
/-- MIDDLE case at `t`, the accumulator found at `a`. -/
def middleRun (h0 : ¬isFirst (grid0.coords t)) (h1 : ¬isLast (grid0.coords t)) (a : Vec F S1x1024 .f32) :=
  runMiddle (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t) a
/-- LAST case at `t`, the accumulator found at `a` and the output block's buffer at `o`. -/
def lastRun (h0 : ¬isFirst (grid0.coords t)) (h1 : isLast (grid0.coords t)) (a : Vec F S1x1024 .f32) (o : Vec F S1x8x128 .f32) :=
  runLast (F := F) c (grid0.coords t) (ms0 t) (hs0 t) (ms1 t) (hs1 t) (ms2 t) (hs2 t) (ms3 t) (hs3 t) (ms4 t) (hs4 t) scM hscM h0 h1 (iblk m c 0 t) (iblk m c 1 t) (iblk m c 2 t) (iblk m c 3 t) a o

/-- The stored rectangles cover the buffers (each store is of the whole buffer). -/
theorem firstOut_cover (h0 : isFirst (grid0.coords t)) (h1 : ¬isLast (grid0.coords t)) (y : S1x8x128.Idx) : ∃ pc ∈ (firstRun m c t h0 h1).1.1, y ∈ pc.1.set :=
  View.cover_of_tiledL (firstRun m c t h0 h1).1.1 S1x8x128.size (by unfold firstRun; sl_kernel_rfl) y
theorem firstAcc_cover (h0 : isFirst (grid0.coords t)) (h1 : ¬isLast (grid0.coords t)) (y : S1x1024.Idx) : ∃ pc ∈ (firstRun m c t h0 h1).1.2, y ∈ pc.1.set :=
  View.cover_of_tiledL (firstRun m c t h0 h1).1.2 S1x1024.size (by unfold firstRun; sl_kernel_rfl) y
theorem middleAcc_cover (h0 : ¬isFirst (grid0.coords t)) (h1 : ¬isLast (grid0.coords t)) (a : Vec F S1x1024 .f32) (y : S1x1024.Idx) : ∃ pc ∈ (middleRun m c t h0 h1 a).1, y ∈ pc.1.set :=
  View.cover_of_tiledL (middleRun m c t h0 h1 a).1 S1x1024.size (by unfold middleRun; sl_kernel_rfl) y
theorem lastAcc_cover (h0 : ¬isFirst (grid0.coords t)) (h1 : isLast (grid0.coords t)) (a : Vec F S1x1024 .f32) (o : Vec F S1x8x128 .f32) (y : S1x1024.Idx) : ∃ pc ∈ (lastRun m c t h0 h1 a o).1.2, y ∈ pc.1.set :=
  View.cover_of_tiledL (lastRun m c t h0 h1 a o).1.2 S1x1024.size (by unfold lastRun; sl_kernel_rfl) y

/-- What the cases leave: the stored rectangles read back (over anything where they cover the buffer, over the contents
    found for the output block in the last case, whose one store does not cover it). -/
def outFirst (h0 : isFirst (grid0.coords t)) (h1 : ¬isLast (grid0.coords t)) : Vec F S1x8x128 .f32 :=
  (ms4 t).view.read (Elt F) ((ms4 t).view.writes (Elt F) (ms4 t).view.junk (firstRun m c t h0 h1).1.1)
def accFirst (h0 : isFirst (grid0.coords t)) (h1 : ¬isLast (grid0.coords t)) : Vec F S1x1024 .f32 :=
  (scM).view.read (Elt F) ((scM).view.writes (Elt F) (scM).view.junk (firstRun m c t h0 h1).1.2)
def accMiddle (h0 : ¬isFirst (grid0.coords t)) (h1 : ¬isLast (grid0.coords t)) (a : Vec F S1x1024 .f32) : Vec F S1x1024 .f32 :=
  (scM).view.read (Elt F) ((scM).view.writes (Elt F) (scM).view.junk (middleRun m c t h0 h1 a).1)
def outLast (h0 : ¬isFirst (grid0.coords t)) (h1 : isLast (grid0.coords t)) (a : Vec F S1x1024 .f32) (o : Vec F S1x8x128 .f32) : Vec F S1x8x128 .f32 :=
  (ms4 t).view.read (Elt F) ((ms4 t).view.writes (Elt F) ((hs4 t).unread o) (lastRun m c t h0 h1 a o).1.1)
def accLast (h0 : ¬isFirst (grid0.coords t)) (h1 : isLast (grid0.coords t)) (a : Vec F S1x1024 .f32) (o : Vec F S1x8x128 .f32) : Vec F S1x1024 .f32 :=
  (scM).view.read (Elt F) ((scM).view.writes (Elt F) (scM).view.junk (lastRun m c t h0 h1 a o).1.2)

end AtPoint

/-! ## The state after each point -/

/-- After position `n`: what the output block's buffer holds (first component) and what the accumulator holds (second). -/
def stAt (c : Dev nD) : (n : ℕ) → n < cfg0.N → Vec F S1x8x128 .f32 × Vec F S1x1024 .f32
  | 0, hn =>
    (outFirst m c ⟨0, hn⟩ ((first_iff ⟨0, hn⟩).mpr (Nat.zero_mod _)) (fun h => by have := (last_iff ⟨0, hn⟩).mp h; (try dsimp only at this); omega),
     accFirst m c ⟨0, hn⟩ ((first_iff ⟨0, hn⟩).mpr (Nat.zero_mod _)) (fun h => by have := (last_iff ⟨0, hn⟩).mp h; (try dsimp only at this); omega))
  | n + 1, hn =>
    if h0 : (n + 1) % 16 = 0 then
      (outFirst m c ⟨n + 1, hn⟩ ((first_iff ⟨n + 1, hn⟩).mpr h0) (fun h => by have := (last_iff ⟨n + 1, hn⟩).mp h; (try dsimp only at this); omega),
       accFirst m c ⟨n + 1, hn⟩ ((first_iff ⟨n + 1, hn⟩).mpr h0) (fun h => by have := (last_iff ⟨n + 1, hn⟩).mp h; (try dsimp only at this); omega))
    else if h1 : (n + 1) % 16 = 15 then
      (outLast m c ⟨n + 1, hn⟩ (fun h => h0 ((first_iff ⟨n + 1, hn⟩).mp h)) ((last_iff ⟨n + 1, hn⟩).mpr h1) (stAt c n (Nat.lt_of_succ_lt hn)).2 (stAt c n (Nat.lt_of_succ_lt hn)).1,
       accLast m c ⟨n + 1, hn⟩ (fun h => h0 ((first_iff ⟨n + 1, hn⟩).mp h)) ((last_iff ⟨n + 1, hn⟩).mpr h1) (stAt c n (Nat.lt_of_succ_lt hn)).2 (stAt c n (Nat.lt_of_succ_lt hn)).1)
    else
      ((stAt c n (Nat.lt_of_succ_lt hn)).1,
       accMiddle m c ⟨n + 1, hn⟩ (fun h => h0 ((first_iff ⟨n + 1, hn⟩).mp h)) (fun h => h1 ((last_iff ⟨n + 1, hn⟩).mp h)) (stAt c n (Nat.lt_of_succ_lt hn)).2)

theorem stAt_first (c : Dev nD) (t : Fin cfg0.N) (h0 : t.val % 16 = 0) (h1 : ¬t.val % 16 = 15) :
    stAt m c t.val t.isLt = (outFirst m c t ((first_iff t).mpr h0) (fun h => h1 ((last_iff t).mp h)), accFirst m c t ((first_iff t).mpr h0) (fun h => h1 ((last_iff t).mp h))) := by
  obtain ⟨n, hn⟩ := t
  cases n with
  | zero => rfl
  | succ n => exact (dif_pos h0).trans rfl

theorem stAt_last (c : Dev nD) (t : Fin cfg0.N) (h0 : ¬t.val % 16 = 0) (h1 : t.val % 16 = 15) :
    stAt m c t.val t.isLt
      = (outLast m c t (fun h => h0 ((first_iff t).mp h)) ((last_iff t).mpr h1) (stAt m c (t.val - 1) (Nat.lt_of_le_of_lt (Nat.sub_le _ _) t.isLt)).2 (stAt m c (t.val - 1) (Nat.lt_of_le_of_lt (Nat.sub_le _ _) t.isLt)).1,
         accLast m c t (fun h => h0 ((first_iff t).mp h)) ((last_iff t).mpr h1) (stAt m c (t.val - 1) (Nat.lt_of_le_of_lt (Nat.sub_le _ _) t.isLt)).2 (stAt m c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

theorem stAt_middle (c : Dev nD) (t : Fin cfg0.N) (h0 : ¬t.val % 16 = 0) (h1 : ¬t.val % 16 = 15) :
    stAt m c t.val t.isLt
      = ((stAt m c (t.val - 1) (Nat.lt_of_le_of_lt (Nat.sub_le _ _) t.isLt)).1,
         accMiddle m c t (fun h => h0 ((first_iff t).mp h)) (fun h => h1 ((last_iff t).mp h)) (stAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- The invariant before position `n`: before the first point the accumulator holds anything; afterwards what the point
    before left in it. -/
def PhiS (c : Dev nD) : (n : ℕ) → n ≤ cfg0.N → sProp 𝕄
  | 0, _ => Pipeline.ΦA spec0 c
  | n + 1, hn => iprop(iprop(owns (c : Thread nD τ) scM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((stAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((stAt m c (n - 1) (by omega)).2)) ∗ (∃ r, prngReg c r)) := by
  cases n with
  | zero => exact absurd rfl hz
  | succ n => rfl

/-! ## The proof data -/

/-- On core `c`: the arrays as the region finds them; after the body each input's buffer at its block and the output
    block's buffer at `stAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (stAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The output window's blocks are never cut. -/
theorem clip4 : ∀ (i : cfg0.grid.Coords) a, (cfg0.win 4).clip i a = none := fun _ _ => rfl

/-- What the body finds in the output block's buffer at a point that is not the first of its row: what the point
    before left there — through the middle points, where the buffer is idle, the contents stored at the row's first
    point.  By induction on the position. -/
theorem before_4 (c : Dev nD) : ∀ (n : ℕ) (hn : n < cfg0.N), ¬n % 16 = 0 → ∀ d,
    (dats m 0 c).before 4 ⟨n, hn⟩ d = (stAt m c (n - 1) (Nat.lt_of_le_of_lt (Nat.sub_le _ _) hn)).1
  | 0, _, h, _ => absurd (Nat.zero_mod _) h
  | n + 1, hn, h, d => by
    have hN : n + 1 < 64 := lt_of_lt_of_eq hn (show cfg0.N = 64 from N_0)
    have hn' : n < cfg0.N := Nat.lt_of_succ_lt hn
    rw [(dats m 0 c).before_of_pos 4 ⟨n + 1, hn⟩ (Nat.succ_ne_zero n) ((cfg0.win 4).fetch_out rfl _)]
    have hfl : (cfg0.win 4).flush ⟨n, hn'⟩ = false := by
      rw [Bool.eq_false_iff]; intro hf; have := (flush0_4 ⟨n, hn'⟩).mp hf; (try dsimp only at this); omega
    show (if (cfg0.win 4).flush ⟨n, hn'⟩ = true then d else (dats m 0 c).left 4 ⟨n, hn'⟩ d) = (stAt m c n hn').1
    rw [hfl, if_neg Bool.false_ne_true]
    unfold Dat.left
    split
    · next hi =>
      have hmid := (idle4_iff ⟨n, hn'⟩).mp hi
      rw [before_4 c n hn' hmid.1 d, stAt_middle m c ⟨n, hn'⟩ hmid.1 hmid.2]
    · next hi =>
      unfold Dat.kept
      rw [Pipeline.fill_of_clip_none (cfg := cfg0) (4 : Fin cfg0.W) _ (clip4 _) d ((dats m 0 c).after 4 ⟨n, hn'⟩), Window.fill_cut, after_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by cases on the position modulo 16, the case's run, the accumulator taken from and returned
    to the invariant, the output block's buffer stored whole (first), left alone (middle) or found at what the first
    point of the row stored and overwritten in one entry (last). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  by_cases h0 : t.val % 16 = 0
  · have h1 : ¬t.val % 16 = 15 := by omega
    have hi : cfg0.idle 4 (cfg0.grid.coords t) = false :=
      Bool.eq_false_iff.mpr fun h => ((idle4_iff t).mp h).1 h0
    rw [show (dats m 0 c).leavesExact 4 t = owns (c : Thread nD τ) (ms4 t) fullShare ((dats m 0 c).after 4 t) from by
      unfold Dat.leavesExact; rw [hi], after_4]
    rw [stAt_first m c t h0 h1]
    dsimp only
    unfold outFirst accFirst
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩⟩
      iapply ((firstRun m c t ((first_iff t).mpr h0) (fun h => h1 ((last_iff t).mp h))).2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (firstAcc_cover m c t _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (firstOut_cover m c t _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((firstRun m c t ((first_iff t).mpr h0) (fun h => h1 ((last_iff t).mp h))).2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (firstAcc_cover m c t _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (firstOut_cover m c t _ _)
  · have hz : t.val ≠ 0 := fun h => h0 (by rw [h])
    rw [PhiS_castSucc m c t, PhiS_pos m c _ _ hz]
    by_cases h1 : t.val % 16 = 15
    · have hi : cfg0.idle 4 (cfg0.grid.coords t) = false :=
        Bool.eq_false_iff.mpr fun h => ((idle4_iff t).mp h).2 h1
      rw [show (dats m 0 c).leavesExact 4 t = owns (c : Thread nD τ) (ms4 t) fullShare ((dats m 0 c).after 4 t) from by
        unfold Dat.leavesExact; rw [hi], after_4]
      simp only [before_4 m c t.val t.isLt h0]
      rw [stAt_last m c t h0 h1]
      dsimp only
      unfold outLast accLast
      iintro ⟨⟨HS0, Hg⟩, Ho, ⟨%d0, H0⟩, ⟨%d1, H1⟩, ⟨%d2, H2⟩, ⟨%d3, H3⟩, ⟨%d4, H4⟩⟩
      iapply ((lastRun m c t (fun h => h0 ((first_iff t).mp h)) ((last_iff t).mpr h1) _ _).2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (lastAcc_cover m c t _ _ _ _)
        iexact Hg
      isplitl [Ho]; · iexact Ho
      isplitl [H0]; · iexact H0
      isplitl [H1]; · iexact H1
      isplitl [H2]; · iexact H2
      isplitl [H3]; · iexact H3
      iapply (owns_intro _ _ _ _); iexact H4
    · have hi : cfg0.idle 4 (cfg0.grid.coords t) = true := (idle4_iff t).mpr ⟨h0, h1⟩
      have hfl : (cfg0.win 4).flush t = false := by
        rw [Bool.eq_false_iff]; intro hf; exact h1 ((flush0_4 t).mp hf)
      rw [(dats m 0 c).leavesExact_idle 4 t hi hfl]
      rw [stAt_middle m c t h0 h1]
      dsimp only
      unfold accMiddle
      iintro ⟨⟨HS0, Hg⟩, Ho, ⟨%d0, H0⟩, ⟨%d1, H1⟩, ⟨%d2, H2⟩, ⟨%d3, H3⟩, ⟨%d4, H4⟩⟩
      iapply ((middleRun m c t (fun h => h0 ((first_iff t).mp h)) (fun h => h1 ((last_iff t).mp h)) _).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (middleAcc_cover m c t _ _ _)
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS0, Hg⟩
  isplitl [HS0]
  · iexists _; iexact HS0
  iexact Hg

/-! ## The run -/

set_option backward.isDefEq.respectTransparency.types false in
/-- Every weakly fair execution of the program terminates; afterwards every array of the region holds what the proof
    data computes (an input its contents at entry, the output array its blocks as written back) and every other
    buffer what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelIdealContents.lean ====
/-
  What the three cases leave, as the body's pure terms.

  Each case's run says what the accumulator and the output block hold afterwards as stored rectangles read back.
  Here they are identified: a store of a whole buffer leaves its payload; the payloads are the zero splats, the
  accumulator update (the block's column sums of squared errors added to the value found) and the lane total; and in
  the last case the output block keeps what it held except at entry (0,0,0).  The state after each point then obeys
  three equations, one per case, stated at the end.
-/
import proofs.«115720_j51848845197512_2_alg».proof.Proof.KernelIdealFrame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer rectangle, as the constant function. -/
theorem off2 : (![0, 0] : Fin 2 → ℕ) = fun _ => 0 := by funext a; fin_cases a <;> rfl
theorem off3 : (![0, 0, 0] : Fin 3 → ℕ) = fun _ => 0 := by funext a; fin_cases a <;> rfl

section AtPoint
variable (c : Dev nD) (t : Fin cfg0.N)

/-- FIRST case: the accumulator ends at the update of the zero splat, -/
theorem accFirst_eq (h0 : isFirst (grid0.coords t)) (h1 : ¬isLast (grid0.coords t)) :
    accFirst m c t h0 h1 = k0_pay3 (iblk m c 0 t) (iblk m c 1 t) (iblk m c 3 t) (iblk m c 2 t) (k0_pay1 (F := F)) := by
  unfold accFirst
  rw [View.read_writes_junk_eq_canon]
  unfold firstRun runFirst
  dsimp only
  sl_unfold_words
  rw [View.canon_cons_unit_zero (S := S1x1024) off2]
  simp only [View.readAt_eq_ld, Memref.IsWhole.read_unread, View.ld_unit_zero (S := S1024x1024) off2, View.ld_unit_zero (S := S1x1024) off2, View.readCov_unit_zero (S := S1x1024) _ off2]

/-- and the output block at the zero splat. -/
theorem outFirst_eq (h0 : isFirst (grid0.coords t)) (h1 : ¬isLast (grid0.coords t)) :
    outFirst m c t h0 h1 = k0_pay2 (F := F) := by
  unfold outFirst
  rw [View.read_writes_junk_eq_canon]
  unfold firstRun runFirst
  dsimp only
  sl_unfold_words
  rw [View.canon_unit_zero (S := S1x8x128) off3]

/-- MIDDLE case: the accumulator ends at the update of what it held. -/
theorem accMiddle_eq (h0 : ¬isFirst (grid0.coords t)) (h1 : ¬isLast (grid0.coords t)) (a : Vec F S1x1024 .f32) :
    accMiddle m c t h0 h1 a = k0_pay3 (iblk m c 0 t) (iblk m c 1 t) (iblk m c 3 t) (iblk m c 2 t) a := by
  unfold accMiddle
  rw [View.read_writes_junk_eq_canon]
  unfold middleRun runMiddle
  dsimp only
  sl_unfold_words
  rw [View.canon_unit_zero (S := S1x1024) off2]
  simp only [View.readAt_eq_ld, Memref.IsWhole.read_unread, View.ld_unit_zero (S := S1024x1024) off2, View.ld_unit_zero (S := S1x1024) off2]
  exact congrArg (k0_pay3 (iblk m c 0 t) (iblk m c 1 t) (iblk m c 3 t) (iblk m c 2 t)) (hscM.read_unread a)

/-- LAST case: the accumulator likewise, -/
theorem accLast_eq (h0 : ¬isFirst (grid0.coords t)) (h1 : isLast (grid0.coords t)) (a : Vec F S1x1024 .f32) (o : Vec F S1x8x128 .f32) :
    accLast m c t h0 h1 a o = k0_pay3 (iblk m c 0 t) (iblk m c 1 t) (iblk m c 3 t) (iblk m c 2 t) a := by
  unfold accLast
  rw [View.read_writes_junk_eq_canon]
  unfold lastRun runLast
  dsimp only
  sl_unfold_words
  rw [View.canon_unit_zero (S := S1x1024) off2]
  simp only [View.readAt_eq_ld, Memref.IsWhole.read_unread, View.ld_unit_zero (S := S1024x1024) off2, View.ld_unit_zero (S := S1x1024) off2]
  exact congrArg (k0_pay3 (iblk m c 0 t) (iblk m c 1 t) (iblk m c 3 t) (iblk m c 2 t)) (hscM.read_unread a)

/-- and the output block at what it held, but for entry (0,0,0), which holds the sum of the updated accumulator's lanes. -/
theorem outLast_origin (h0 : ¬isFirst (grid0.coords t)) (h1 : isLast (grid0.coords t)) (a : Vec F S1x1024 .f32) (o : Vec F S1x8x128 .f32) :
    outLast m c t h0 h1 a o (ix3 (0 : Fin 1) (0 : Fin 8) (0 : Fin 128))
      = k0_pay4 (k0_pay3 (iblk m c 0 t) (iblk m c 1 t) (iblk m c 3 t) (iblk m c 2 t) a) (ix3 (0 : Fin 1) (0 : Fin 1) (0 : Fin 1)) := by
  unfold outLast
  unfold lastRun runLast
  dsimp only
  sl_unfold_words
  have he : (Rect.unit (s := S1x8x128) ![0, 0, 0] S1x1x1.size inb_S1x8x128_S1x1x1_0_0_0).emb (ix3 (0 : Fin 1) (0 : Fin 1) (0 : Fin 1))
      = ix3 (0 : Fin 1) (0 : Fin 8) (0 : Fin 128) := by
    funext d; apply Fin.ext; fin_cases d <;> rfl
  rw [← he, View.read_writes_cons_emb]
  simp only [View.readAt_eq_ld, Memref.IsWhole.read_unread, View.ld_unit_zero (S := S1024x1024) off2, View.ld_unit_zero (S := S1x1024) off2, View.readCov_unit_zero (S := S1x1024) _ off2]
  exact congrArg (fun z => k0_pay4 (k0_pay3 (iblk m c 0 t) (iblk m c 1 t) (iblk m c 3 t) (iblk m c 2 t) z) (ix3 (0 : Fin 1) (0 : Fin 1) (0 : Fin 1))) (hscM.read_unread a)

theorem outLast_other (h0 : ¬isFirst (grid0.coords t)) (h1 : isLast (grid0.coords t)) (a : Vec F S1x1024 .f32) (o : Vec F S1x8x128 .f32)
    (p : Fin 8) (q : Fin 128) (hpq : p.val ≠ 0 ∨ q.val ≠ 0) :
    outLast m c t h0 h1 a o (ix3 (0 : Fin 1) p q) = o (ix3 (0 : Fin 1) p q) := by
  unfold outLast
  rw [View.read_writes_apply_of_forall_not_mem]
  · exact congrFun ((hs4 t).read_unread o) _
  · intro pc hpc
    unfold lastRun runLast at hpc
    dsimp only at hpc
    rw [List.mem_singleton] at hpc
    rw [hpc, Rect.mem_set_unit]
    intro hall
    have e1 : p.val < 0 + 1 := (hall 1).2
    have e2 : q.val < 0 + 1 := (hall 2).2
    omega

end AtPoint

/-! ## The state's equations, case by case -/

/-- After a row's first point: the output block is the zero splat, the accumulator the update of the zero splat. -/
theorem st_first (c : Dev nD) (t : Fin cfg0.N) (h : t.val % 16 = 0) :
    (stAt m c t.val t.isLt).1 = k0_pay2 (F := F)
    ∧ (stAt m c t.val t.isLt).2 = k0_pay3 (iblk m c 0 t) (iblk m c 1 t) (iblk m c 3 t) (iblk m c 2 t) (k0_pay1 (F := F)) := by
  have h1 : ¬t.val % 16 = 15 := by omega
  rw [stAt_first m c t h h1]
  dsimp only
  exact ⟨outFirst_eq m c t ((first_iff t).mpr h) (fun h' => h1 ((last_iff t).mp h')),
    accFirst_eq m c t ((first_iff t).mpr h) (fun h' => h1 ((last_iff t).mp h'))⟩

/-- After a middle point: the output block as before, the accumulator updated. -/
theorem st_middle (c : Dev nD) (t : Fin cfg0.N) (h0 : ¬t.val % 16 = 0) (h1 : ¬t.val % 16 = 15) :
    (stAt m c t.val t.isLt).1 = (stAt m c (t.val - 1) (Nat.lt_of_le_of_lt (Nat.sub_le _ _) t.isLt)).1
    ∧ (stAt m c t.val t.isLt).2 = k0_pay3 (iblk m c 0 t) (iblk m c 1 t) (iblk m c 3 t) (iblk m c 2 t) (stAt m c (t.val - 1) (Nat.lt_of_le_of_lt (Nat.sub_le _ _) t.isLt)).2 := by
  rw [stAt_middle m c t h0 h1]
  dsimp only
  exact ⟨rfl, accMiddle_eq m c t (fun h' => h0 ((first_iff t).mp h')) (fun h' => h1 ((last_iff t).mp h')) _⟩

/-- After a row's last point: the accumulator updated, entry (0,0,0) of the output block the sum of its lanes, the other
    entries as before. -/
theorem st_last (c : Dev nD) (t : Fin cfg0.N) (h0 : ¬t.val % 16 = 0) (h1 : t.val % 16 = 15) :
    (stAt m c t.val t.isLt).2 = k0_pay3 (iblk m c 0 t) (iblk m c 1 t) (iblk m c 3 t) (iblk m c 2 t) (stAt m c (t.val - 1) (Nat.lt_of_le_of_lt (Nat.sub_le _ _) t.isLt)).2
    ∧ (stAt m c t.val t.isLt).1 (ix3 (0 : Fin 1) (0 : Fin 8) (0 : Fin 128)) = k0_pay4 (stAt m c t.val t.isLt).2 (ix3 (0 : Fin 1) (0 : Fin 1) (0 : Fin 1))
    ∧ ∀ (a : Fin 8) (b : Fin 128), (a.val ≠ 0 ∨ b.val ≠ 0) →
        (stAt m c t.val t.isLt).1 (ix3 (0 : Fin 1) a b) = (stAt m c (t.val - 1) (Nat.lt_of_le_of_lt (Nat.sub_le _ _) t.isLt)).1 (ix3 (0 : Fin 1) a b) := by
  rw [stAt_last m c t h0 h1]
  dsimp only
  refine ⟨accLast_eq m c t (fun h' => h0 ((first_iff t).mp h')) ((last_iff t).mpr h1) _ _, ?_,
    fun a b hab => outLast_other m c t (fun h' => h0 ((first_iff t).mp h')) ((last_iff t).mpr h1) _ _ a b hab⟩
  rw [outLast_origin m c t (fun h' => h0 ((first_iff t).mp h')) ((last_iff t).mpr h1), accLast_eq m c t (fun h' => h0 ((first_iff t).mp h')) ((last_iff t).mpr h1)]

end Cert.KernelIdeal.Body

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibColSum.lean ====
/-
  A sublane sum read at one column, over the extended reals: summing an [a, b] array along its FIRST coordinate gives,
  at column q, the sum over the a entries of that column — for any extents and any float format. The inserted index
  that the library's one-axis reduction law speaks of is, at literal rank two, the pair (k, q).
-/
import Idealize.ShloMosaic.Lib.ValueIdx
import Idealize.ShloMosaic.PureOps.Ideal.Laws

open scoped BigOperators

namespace Cert.LibColSum

open Idealize.ShloMosaic Idealize.ShloMosaic.ValueIdx

/-- A column's sum: the `add` reduction of an `[a, b]` array over its rows reads, at column `q`, the sum of the
    column's `a` entries (the accumulator is the sum's neutral element, so it contributes nothing). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  show ∑ k : Fin a, src (h.lift (ix1 q) k) = _
  refine Finset.sum_congr rfl fun k _ => congrArg src ?_
  funext d; apply Fin.ext
  match d with
  | ⟨0, _⟩ => rfl
  | ⟨1, _⟩ => rfl

end Cert.LibColSum
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.Payload.lean ====
/-
  The four values the kernel body stores, read entry by entry over the extended reals.

  The two initial values are zero splats: every entry is 0.  The accumulator update reads, at lane l, the old lane plus
  the block's column sum at l of the squared errors: the sum over the 1024 rows r of
  (sum over h of x0 (r,h) * x1 (l,h) + b (0,l) - t (r,l))^2, where the second factor enters the product transposed.
  The final value reads, at its one entry, the sum of the accumulator's 1024 lanes.
-/
import proofs.«115720_j51848845197512_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«115720_j51848845197512_2_alg».proof.Proof.LibMatmulIdx
import proofs.«115720_j51848845197512_2_alg».proof.Proof.LibColSum
import proofs.«115720_j51848845197512_2_alg».proof.Proof.LibRowSum

open scoped BigOperators

noncomputable section

namespace Cert.KernelIdeal.Pay

open Cert.KernelIdeal Cert.KernelIdeal.Gen Idealize.ShloMosaic Idealize.ShloMosaic.ValueIdx

/-! ## The two zero splats -/

/-- The accumulator's initial value: every lane is zero. -/
theorem pay1_apply (y : S1x1024.Idx) : k0_pay1 (F := Ideal) y = 0 := by
  unfold k0_pay1
  rw [shapeCast_self]
  exact Ideal.ofBits_zero_f32

/-- The output block's initial value: every entry is zero. -/
theorem pay2_apply (y : S1x8x128.Idx) : k0_pay2 (F := Ideal) y = 0 := by
  unfold k0_pay2
  unfold shapeCast
  exact Ideal.ofBits_zero_f32

/-! ## The accumulator update -/

/-- The product of the first block with the second block transposed, accumulated into zero, read at row `r` and
    column `l`: row `r` of the first against row `l` of the second. -/
theorem prod_apply (x0 x1 : FVec Ideal S1024x1024 .bf16) (r l : Fin 1024) :
    matmul dot_S1024x1024_S1024x1024_S1024x1024_1_0_0_1_n_n none
        x0 (transpose S1024x1024 [1, 0] x1 transposes_S1024x1024_p1_0_S1024x1024 : FVec Ideal S1024x1024 .bf16)
        (constant (F := Ideal) S1024x1024 .f32 0x00000000#32) (ix2 r l)
      = ∑ h : Fin 1024, x0 (ix2 r h) * x1 (ix2 l h) := by
  refine (Cert.LibMatmulIdx.matmul_rc_apply dot_S1024x1024_S1024x1024_S1024x1024_1_0_0_1_n_n_wf none _ _ r l).trans ?_
  refine Finset.sum_congr rfl fun h _ => ?_
  rw [transpose_ix2_apply]

/-- The accumulator's new lane `l`: the old lane plus the block's column sum of squared errors at `l`. -/
theorem pay3_apply (x0 x1 : Vec Ideal S1024x1024 .bf16) (b : Vec Ideal S1x1024 .f32) (t : Vec Ideal S1024x1024 .f32)
    (a : Vec Ideal S1x1024 .f32) (l : Fin 1024) :
    k0_pay3 x0 x1 b t a (ix2 (0 : Fin 1) l)
      = a (ix2 (0 : Fin 1) l) + ∑ r : Fin 1024,
          (((∑ h : Fin 1024, x0 (ix2 r h) * x1 (ix2 l h)) + b (ix2 (0 : Fin 1) l) - t (ix2 r l))
            * ((∑ h : Fin 1024, x0 (ix2 r h) * x1 (ix2 l h)) + b (ix2 (0 : Fin 1) l) - t (ix2 r l))) := by
  unfold k0_pay3
  simp only [shapeCast_self]
  rw [addf_apply, shapeCast_a_1a_apply]
  refine congrArg (fun z => a (ix2 (0 : Fin 1) l) + z) ?_
  refine (Cert.LibColSum.colSum_apply (a := 1024) (b := 1024) _ _ _ _ _ l).trans ?_
  refine Finset.sum_congr rfl fun r _ => ?_
  rw [mulf_apply, subf_apply, addf_apply, broadcastTo_1b_ab_apply, prod_apply]

/-! ## The lane sum stored at the last column block -/

/-- The one entry stored at the end: the sum of the accumulator's lanes. -/
theorem pay4_apply (a : Vec Ideal S1x1024 .f32) :
    k0_pay4 a (ix3 (0 : Fin 1) (0 : Fin 1) (0 : Fin 1)) = ∑ l : Fin 1024, a (ix2 (0 : Fin 1) l) := by
  unfold k0_pay4
  rw [shapeCast_ab_1ab_apply, shapeCast_a_1a_apply]
  exact Cert.LibRowSum.rowSum_apply (a := 1) (b := 1024) a _ _ _ _ (0 : Fin 1)

end Cert.KernelIdeal.Pay

end
-- ==== Proof.Spec.lean ====
/-
  The mean squared error of a linear layer, as one function of the four argument arrays on the extended reals.

  For x : [4096, 1024], w : [16384, 1024], t : [4096, 16384], b : [16384] the squared error at row n and column v is
  (sum over h of x (n,h) * w (v,h) + b v - t (n,v))^2; the result is (0 + the sum of all 4096 * 16384 squared errors)
  divided by 2^26, the two float literals kept as the words both programs print.  The same total is also the sum, over
  the 4 x 16 blocks of 1024 x 1024 entries, of each block's 1024 column sums: that is the order in which the kernel adds.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the four arguments. -/
abbrev SX : Shape := ⟨2, ![4096, 1024]⟩
abbrev SW : Shape := ⟨2, ![16384, 1024]⟩
abbrev ST : Shape := ⟨2, ![4096, 16384]⟩
abbrev SB : Shape := ⟨1, ![16384]⟩

variable (X : SX.Idx → EReal) (W : SW.Idx → EReal) (T : ST.Idx → EReal) (B : SB.Idx → EReal)

/-- The linear layer's output at row `n`, column `v`, less the target there. -/
def err (n : Fin 4096) (v : Fin 16384) : EReal :=
  (∑ h : Fin 1024, X (ix2 n h) * W (ix2 v h)) + B (ix1 v) - T (ix2 n v)

/-- Its square. -/
def sqErr (n : Fin 4096) (v : Fin 16384) : EReal := err X W T B n v * err X W T B n v

/-- The sum of all squared errors. -/
def total : EReal := ∑ j : ST.Idx, sqErr X W T B (j 0) (j 1)

/-- The mean squared error as both programs compute it: zero plus the total, divided by the float 2^26. -/
def mse : (⟨0, ![]⟩ : Shape).Idx → EReal :=
  fun _ => Ideal.div (Ideal.ofBits .f32 0x00000000#32 + total X W T B) (Ideal.ofBits .f32 0x4C800000#32)

/-- Row `r` of row block `i` (1024 rows per block). -/
def rowOf (i : Fin 4) (r : Fin 1024) : Fin 4096 := ⟨i.val * 1024 + r.val, by have := i.isLt; have := r.isLt; omega⟩
/-- Column `l` of column block `j` (1024 columns per block). -/
def colOf (j : Fin 16) (l : Fin 1024) : Fin 16384 := ⟨j.val * 1024 + l.val, by have := j.isLt; have := l.isLt; omega⟩

/-- Column `l`'s sum of squared errors inside block `(i, j)`: what one grid point adds to lane `l`. -/
def blockLane (i : Fin 4) (j : Fin 16) (l : Fin 1024) : EReal :=
  ∑ r : Fin 1024, sqErr X W T B (rowOf i r) (colOf j l)

/-- Row block `i`'s total: over the lanes, over the column blocks, the block's lane sum. -/
def rowBlockTotal (i : Fin 4) : EReal := ∑ l : Fin 1024, ∑ j : Fin 16, blockLane X W T B i j l

end Cert.Spec

end
-- ==== Proof.Blocks.lean ====
/-
  The four input blocks at a grid point, read as entries of the argument arrays.

  Grid point t of the 4 x 16 grid has row block t / 16 and column block t % 16.  The first window's block there is
  rows 1024 (t/16) .. of x, the second's is rows 1024 (t%16) .. of w, the third's is that row block and column block
  of the target, the fourth's is columns 1024 (t%16) .. of the bias laid out as one row.  The two format changes made
  before the region are the identity on the extended reals and the reshape of the bias keeps its entries in order.
  With the body's accumulator update read entry by entry, one grid point adds to lane l the block's column sum at l
  of the squared errors.
-/
import proofs.«115720_j51848845197512_2_alg».proof.Proof.Gen.KernelIdeal.Frame
import proofs.«115720_j51848845197512_2_alg».proof.Proof.Payload
import proofs.«115720_j51848845197512_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

open scoped BigOperators

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The row block of grid point `t`. -/
def rowBlock (t : Fin cfg0.N) : Fin 4 := ⟨t.val / 16, by have := t.isLt; have : cfg0.N = 64 := N_0; omega⟩
/-- The column block of grid point `t`. -/
def colBlock (t : Fin cfg0.N) : Fin 16 := ⟨t.val % 16, Nat.mod_lt _ (by decide)⟩

/-- The four argument arrays as launched. -/
abbrev argX : Cert.Spec.SX.Idx → EReal := m ((c : Thread nD τ).loc main_arg0)
abbrev argW : Cert.Spec.SW.Idx → EReal := m ((c : Thread nD τ).loc main_arg1)
abbrev argT : Cert.Spec.ST.Idx → EReal := m ((c : Thread nD τ).loc main_arg2)
abbrev argB : Cert.Spec.SB.Idx → EReal := m ((c : Thread nD τ).loc main_arg3)

/-- The printed index maps, decided over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = 0 ∧ win0_3.index t (1 : Fin 2) = t.val % 16 :=
  (by decide +kernel : ∀ t : Fin grid0.N, _)

/-! ## The arrays the region finds -/

/-- The first operand's array: x with its format changed, the same extended reals. -/
theorem V_v0 : (V m c main_v0 : S4096x1024.Idx → EReal) = argX m c := by
  show StableHlo.after hostOps0 (fun b => m (c, b)) (Proc.devRef .tc main_v0) = _
  after_results
  rfl

/-- The second operand's array: w with its format changed, the same extended reals. -/
theorem V_v1 : (V m c main_v1 : S16384x1024.Idx → EReal) = argW m c := by
  show StableHlo.after hostOps0 (fun b => m (c, b)) (Proc.devRef .tc main_v1) = _
  after_results
  rfl

/-- The fourth operand's array: the bias as one row. -/
theorem V_v2 : (V m c main_v2 : S1x16384.Idx → EReal) = shapeCast S1x16384 (argB m c) shapeCasts_S16384_S1x16384 := by
  show StableHlo.after hostOps0 (fun b => m (c, b)) (Proc.devRef .tc main_v2) = _
  after_results
  rfl

/-! ## The blocks -/

/-- The first window's block at `t`: rows of x in row block `t / 16`. -/
theorem iblk0_apply (t : Fin cfg0.N) (r h : Fin 1024) :
    (iblk m c 0 t : Vec Ideal S1024x1024 .bf16) (ix2 r h) = argX m c (ix2 (Cert.Spec.rowOf (rowBlock t) r) h) := by
  obtain ⟨e0, e1, -⟩ := idx_facts t
  unfold iblk
  rw [View.read_apply]
  show V m c main_v0 (((cfg0.win 0).blk t).view.emb (ix2 r h)) = _
  refine (congrFun (V_v0 m c) _).trans ?_
  refine congrArg (argX m c) ?_
  funext a
  apply Fin.ext
  match a with
  | ⟨0, _⟩ => show win0_0.index t (0 : Fin 2) * 1024 + 1 * r.val = t.val / 16 * 1024 + r.val; rw [e0]; omega
  | ⟨1, _⟩ => show win0_0.index t (1 : Fin 2) * 1024 + 1 * h.val = h.val; rw [e1]; omega

/-- The second window's block at `t`: rows of w in column block `t % 16`. -/
theorem iblk1_apply (t : Fin cfg0.N) (l h : Fin 1024) :
    (iblk m c 1 t : Vec Ideal S1024x1024 .bf16) (ix2 l h) = argW m c (ix2 (Cert.Spec.colOf (colBlock t) l) h) := by
  obtain ⟨-, -, e0, e1, -⟩ := idx_facts t
  unfold iblk
  rw [View.read_apply]
  show V m c main_v1 (((cfg0.win 1).blk t).view.emb (ix2 l h)) = _
  refine (congrFun (V_v1 m c) _).trans ?_
  refine congrArg (argW m c) ?_
  funext a
  apply Fin.ext
  match a with
  | ⟨0, _⟩ => show win0_1.index t (0 : Fin 2) * 1024 + 1 * l.val = t.val % 16 * 1024 + l.val; rw [e0]; omega
  | ⟨1, _⟩ => show win0_1.index t (1 : Fin 2) * 1024 + 1 * h.val = h.val; rw [e1]; omega

/-- The third window's block at `t`: the target's row block `t / 16`, column block `t % 16`. -/
theorem iblk2_apply (t : Fin cfg0.N) (r l : Fin 1024) :
    (iblk m c 2 t : Vec Ideal S1024x1024 .f32) (ix2 r l)
      = argT m c (ix2 (Cert.Spec.rowOf (rowBlock t) r) (Cert.Spec.colOf (colBlock t) l)) := by
  obtain ⟨-, -, -, -, e0, e1, -⟩ := idx_facts t
  unfold iblk
  rw [View.read_apply]
  show V m c main_arg2 (((cfg0.win 2).blk t).view.emb (ix2 r l)) = _
  rw [V_main_arg2]
  refine congrArg (argT m c) ?_
  funext a
  apply Fin.ext
  match a with
  | ⟨0, _⟩ => show win0_2.index t (0 : Fin 2) * 1024 + 1 * r.val = t.val / 16 * 1024 + r.val; rw [e0]; omega
  | ⟨1, _⟩ => show win0_2.index t (1 : Fin 2) * 1024 + 1 * l.val = t.val % 16 * 1024 + l.val; rw [e1]; omega

/-- The fourth window's block at `t`: the bias's column block `t % 16`, as one row. -/
theorem iblk3_apply (t : Fin cfg0.N) (l : Fin 1024) :
    (iblk m c 3 t : Vec Ideal S1x1024 .f32) (ix2 (0 : Fin 1) l) = argB m c (ix1 (Cert.Spec.colOf (colBlock t) l)) := by
  obtain ⟨-, -, -, -, -, -, e0, e1⟩ := idx_facts t
  unfold iblk
  rw [View.read_apply]
  show V m c main_v2 (((cfg0.win 3).blk t).view.emb (ix2 (0 : Fin 1) l)) = _
  refine (congrFun (V_v2 m c) _).trans ?_
  have hl := l.isLt
  have ht : t.val % 16 < 16 := Nat.mod_lt _ (by decide)
  refine shapeCast_apply _ _ _ _ ?_
  rw [Shape.rowMajor_val_two, Shape.rowMajor_val_one]
  show t.val % 16 * 1024 + l.val
      = (win0_3.index t (0 : Fin 2) * 1 + 1 * 0) * 16384 + (win0_3.index t (1 : Fin 2) * 1024 + 1 * l.val)
  rw [e0, e1]
  omega

/-! ## One grid point's update -/

/-- At grid point `t` the accumulator's lane `l` gains the block's column sum at `l` of the squared errors. -/
theorem update_apply (t : Fin cfg0.N) (a : Vec Ideal S1x1024 .f32) (l : Fin 1024) :
    k0_pay3 (iblk m c 0 t) (iblk m c 1 t) (iblk m c 3 t) (iblk m c 2 t) a (ix2 (0 : Fin 1) l)
      = a (ix2 (0 : Fin 1) l)
        + Cert.Spec.blockLane (argX m c) (argW m c) (argT m c) (argB m c) (rowBlock t) (colBlock t) l := by
  refine (Pay.pay3_apply _ _ _ _ a l).trans ?_
  refine congrArg (fun z => a (ix2 (0 : Fin 1) l) + z) ?_
  unfold Cert.Spec.blockLane Cert.Spec.sqErr Cert.Spec.err
  refine Finset.sum_congr rfl fun r _ => ?_
  simp only [iblk0_apply m c t, iblk1_apply m c t, iblk2_apply m c t, iblk3_apply m c t]

end Cert.KernelIdeal.Blocks

end
-- ==== Proof.Accumulate.lean ====
/-
  Adding up one row block.

  Inside row block i the grid visits the 16 column blocks in order, at positions 16 i + j.  The accumulator's lane l
  after position 16 i + j is the sum over j' <= j of the lane sums of blocks (i, j'): at j = 0 it is zero plus the
  first block's lane sum, afterwards the previous value plus the next block's.  The output block is all zeros through
  j = 14; at j = 15 its entry (0, 0, 0) becomes the sum over the 1024 lanes of the accumulator, which is the row
  block's total, and its other entries stay zero.  Only the commutative monoid laws of + on the extended reals are used.
-/
import proofs.«115720_j51848845197512_2_alg».proof.Proof.Blocks
import proofs.«115720_j51848845197512_2_alg».proof.Proof.Payload
import proofs.«115720_j51848845197512_2_alg».proof.Proof.Spec
import Idealize.ShloMosaic.Lib.ValueIdx

set_option maxRecDepth 16384

open scoped BigOperators

noncomputable section

namespace Cert.KernelIdeal.Accumulate

open Cert.KernelIdeal Cert.KernelIdeal.Gen Idealize.ShloMosaic Idealize.ShloMosaic.TcCoe Idealize.ShloMosaic.ValueIdx
open Idealize.SL.Sem Cert.KernelIdeal.Blocks

variable (m : (ℓ : Loc nD τ sig) → Buf (Elt Ideal) ℓ) (c : Dev nD)

/-- Position `j` of row block `i` in the grid's order. -/
abbrev pt (i : Fin 4) (j : ℕ) (hj : j < 16) : Fin cfg0.N :=
  ⟨16 * i.val + j, by have := i.isLt; have : cfg0.N = 64 := N_0; omega⟩

theorem rowBlock_pt (i : Fin 4) (j : ℕ) (hj : j < 16) : rowBlock (pt i j hj) = i :=
  Fin.ext (by show (16 * i.val + j) / 16 = i.val; omega)

theorem colBlock_pt (i : Fin 4) (j : ℕ) (hj : j < 16) : colBlock (pt i j hj) = ⟨j, hj⟩ :=
  Fin.ext (by show (16 * i.val + j) % 16 = j; omega)

/-- Lane `l`'s partial sum over the column blocks `0 .. j` of row block `i`. -/
def part (i : Fin 4) (l : Fin 1024) (j : ℕ) : EReal :=
  ∑ j' ∈ Finset.range (j + 1),
    if h : j' < 16 then Cert.Spec.blockLane (argX m c) (argW m c) (argT m c) (argB m c) i ⟨j', h⟩ l else 0

section Fold

variable (S : (n : ℕ) → n < cfg0.N → Vec Ideal S1x8x128 .f32 × Vec Ideal S1x1024 .f32)

/-- The state at a position does not depend on how the position is written. -/
theorem S_congr {n n' : ℕ} (e : n = n') (h : n < cfg0.N) (h' : n' < cfg0.N) : S n h = S n' h' := by
  subst e; rfl

variable
  (hFirst : ∀ t : Fin cfg0.N, t.val % 16 = 0 →
    (S t.val t.isLt).1 = k0_pay2 (F := Ideal)
    ∧ (S t.val t.isLt).2 = k0_pay3 (iblk m c 0 t) (iblk m c 1 t) (iblk m c 3 t) (iblk m c 2 t) (k0_pay1 (F := Ideal)))
  (hMiddle : ∀ t : Fin cfg0.N, ¬t.val % 16 = 0 → ¬t.val % 16 = 15 →
    (S t.val t.isLt).1 = (S (t.val - 1) (Nat.lt_of_le_of_lt (Nat.sub_le _ _) t.isLt)).1
    ∧ (S t.val t.isLt).2 = k0_pay3 (iblk m c 0 t) (iblk m c 1 t) (iblk m c 3 t) (iblk m c 2 t)
        (S (t.val - 1) (Nat.lt_of_le_of_lt (Nat.sub_le _ _) t.isLt)).2)
  (hLast : ∀ t : Fin cfg0.N, ¬t.val % 16 = 0 → t.val % 16 = 15 →
    (S t.val t.isLt).2 = k0_pay3 (iblk m c 0 t) (iblk m c 1 t) (iblk m c 3 t) (iblk m c 2 t)
        (S (t.val - 1) (Nat.lt_of_le_of_lt (Nat.sub_le _ _) t.isLt)).2
    ∧ (S t.val t.isLt).1 (ix3 (0 : Fin 1) (0 : Fin 8) (0 : Fin 128))
        = k0_pay4 (S t.val t.isLt).2 (ix3 (0 : Fin 1) (0 : Fin 1) (0 : Fin 1))
    ∧ ∀ (a : Fin 8) (b : Fin 128), (a.val ≠ 0 ∨ b.val ≠ 0) →
        (S t.val t.isLt).1 (ix3 (0 : Fin 1) a b)
          = (S (t.val - 1) (Nat.lt_of_le_of_lt (Nat.sub_le _ _) t.isLt)).1 (ix3 (0 : Fin 1) a b))

include hFirst hMiddle hLast

/-- After position `16 i + j` the accumulator's lanes are the partial sums over the column blocks `0 .. j`, and
    through `j = 14` the output block is still the zero block it was set to. -/
theorem acc_at (i : Fin 4) : ∀ (j : ℕ) (hj : j < 16),
    (∀ l : Fin 1024, (S (16 * i.val + j) (pt i j hj).isLt).2 (ix2 (0 : Fin 1) l) = part m c i l j)
    ∧ (j < 15 → (S (16 * i.val + j) (pt i j hj).isLt).1 = k0_pay2 (F := Ideal)) := by
  intro j
  induction j with
  | zero =>
    intro hj
    have h0 : (pt i 0 hj).val % 16 = 0 := by show (16 * i.val + 0) % 16 = 0; omega
    obtain ⟨h1, h2⟩ := hFirst (pt i 0 hj) h0
    refine ⟨fun l => ?_, fun _ => h1⟩
    refine (congrFun h2 (ix2 (0 : Fin 1) l)).trans ?_
    refine (update_apply m c _ _ l).trans ?_
    rw [Pay.pay1_apply, zero_add, rowBlock_pt, colBlock_pt]
    unfold part
    rw [Finset.sum_range_one, dif_pos hj]
  | succ j ih =>
    intro hj
    obtain ⟨ihA, ihB⟩ := ih (by omega)
    have hne : ¬(pt i (j + 1) hj).val % 16 = 0 := by show ¬(16 * i.val + (j + 1)) % 16 = 0; omega
    have hprev : S ((pt i (j + 1) hj).val - 1) (Nat.lt_of_le_of_lt (Nat.sub_le _ _) (pt i (j + 1) hj).isLt)
        = S (16 * i.val + j) (pt i j (by omega)).isLt :=
      S_congr S (by show 16 * i.val + (j + 1) - 1 = 16 * i.val + j; omega) _ _
    have hstep : (S (pt i (j + 1) hj).val (pt i (j + 1) hj).isLt).2
        = k0_pay3 (iblk m c 0 (pt i (j + 1) hj)) (iblk m c 1 (pt i (j + 1) hj)) (iblk m c 3 (pt i (j + 1) hj))
            (iblk m c 2 (pt i (j + 1) hj)) (S (16 * i.val + j) (pt i j (by omega)).isLt).2 := by
      rw [← hprev]
      by_cases h15 : (pt i (j + 1) hj).val % 16 = 15
      · exact (hLast _ hne h15).1
      · exact (hMiddle _ hne h15).2
    refine ⟨fun l => ?_, fun hlt => ?_⟩
    · refine (congrFun hstep (ix2 (0 : Fin 1) l)).trans ?_
      refine (update_apply m c _ _ l).trans ?_
      rw [ihA l, rowBlock_pt, colBlock_pt]
      unfold part
      rw [Finset.sum_range_succ _ (j + 1), dif_pos hj]
    · have h15 : ¬(pt i (j + 1) hj).val % 16 = 15 := by show ¬(16 * i.val + (j + 1)) % 16 = 15; omega
      refine ((hMiddle _ hne h15).1.trans ?_)
      rw [hprev]
      exact ihB (by omega)

/-- After the last column block of row block `i`, the output block's entry (0, 0, 0) is the row block's total. -/
theorem row_total (i : Fin 4) :
    (S (16 * i.val + 15) (by have := i.isLt; have : cfg0.N = 64 := N_0; omega)).1
        (ix3 (0 : Fin 1) (0 : Fin 8) (0 : Fin 128))
      = Cert.Spec.rowBlockTotal (argX m c) (argW m c) (argT m c) (argB m c) i := by
  have hne : ¬(pt i 15 (by decide)).val % 16 = 0 := by show ¬(16 * i.val + 15) % 16 = 0; omega
  have h15 : (pt i 15 (by decide)).val % 16 = 15 := by show (16 * i.val + 15) % 16 = 15; omega
  obtain ⟨-, h2, -⟩ := hLast (pt i 15 (by decide)) hne h15
  refine h2.trans ?_
  rw [Pay.pay4_apply]
  unfold Cert.Spec.rowBlockTotal
  refine Finset.sum_congr rfl fun l _ => ?_
  refine ((acc_at m c S hFirst hMiddle hLast i 15 (by decide)).1 l).trans ?_
  unfold part
  rw [Finset.sum_range]
  refine Finset.sum_congr rfl fun j _ => ?_
  rw [dif_pos j.isLt]

/-- and its other entries are zero. -/
theorem row_zero (i : Fin 4) (a : Fin 8) (b : Fin 128) (h : a.val ≠ 0 ∨ b.val ≠ 0) :
    (S (16 * i.val + 15) (by have := i.isLt; have : cfg0.N = 64 := N_0; omega)).1 (ix3 (0 : Fin 1) a b) = 0 := by
  have hne : ¬(pt i 15 (by decide)).val % 16 = 0 := by show ¬(16 * i.val + 15) % 16 = 0; omega
  have h15 : (pt i 15 (by decide)).val % 16 = 15 := by show (16 * i.val + 15) % 16 = 15; omega
  obtain ⟨-, -, h3⟩ := hLast (pt i 15 (by decide)) hne h15
  refine (h3 a b h).trans ?_
  have hprev : S ((pt i 15 (by decide)).val - 1) (Nat.lt_of_le_of_lt (Nat.sub_le _ _) (pt i 15 (by decide)).isLt)
      = S (16 * i.val + 14) (pt i 14 (by decide)).isLt :=
    S_congr S (by show 16 * i.val + 15 - 1 = 16 * i.val + 14; omega) _ _
  rw [hprev, (acc_at m c S hFirst hMiddle hLast i 14 (by decide)).2 (by decide)]
  exact Pay.pay2_apply _

end Fold

end Cert.KernelIdeal.Accumulate

end
-- ==== Proof.Tail.lean ====
/-
  The end of the whole program, over the extended reals.

  After the grid has run, the host sums the [4, 8, 128] output array over all its entries onto the zero literal and
  divides by the literal 2^26: the program's result is that quotient, both literals kept as words.  The output array
  itself holds, in row i, the block that the last grid point of row i wrote back (point 16 i + 15).
-/
import proofs.«115720_j51848845197512_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

set_option maxRecDepth 16384

open scoped BigOperators

noncomputable section

namespace Cert.KernelIdeal.Tail

open Cert.KernelIdeal Cert.KernelIdeal.Gen Idealize.ShloMosaic Idealize.ShloMosaic.ValueIdx
open Idealize.ShloMosaic.Pipeline (Dat)
open Idealize.SL.Sem

variable (m : (ℓ : Loc nD τ sig) → Buf (Elt Ideal) ℓ)
  (dats : (p : Fin 1) → (c : Dev nD) → Dat τ (Elt Ideal) Unit ℕ (UR sig nD τ) ℕ (cfgs p) c) (c : Dev nD)

/-! ## The host lines after the grid -/

/-- The program's result: the zero literal plus the sum of the output array's entries, divided by the literal 2^26. -/
theorem tail_result : Pipeline.afterTail₀ cfgs dats 0 (V0 m) [hostOps1] c main_v5
    = fun _ => Ideal.div (Ideal.ofBits .f32 0x00000000#32
          + Finset.sum (M := EReal) Finset.univ fun j : S4x8x128.Idx => (dats 0 c).arrAt 4 cfg0.N j)
        (Ideal.ofBits .f32 0x4C800000#32) := by
  unfold Pipeline.afterTail₀
  show StableHlo.after hostOps1 _ (Proc.devRef .tc main_v5) = _
  after_results
  rw [show Pipeline.withArrays (cfgs 0).spec c (V0 m c) (fun w => (dats 0 c).arrAt w (cfgs 0).N) (Proc.devRef .tc main_v3)
      = (dats 0 c).arrAt 4 cfg0.N from Pipeline.withArrays_arr spec0 launch0.win.arr_inj c _ _ 4]
  generalize (dats 0 c).arrAt 4 cfg0.N = y0
  funext i
  show FloatOps.hostDivf (Host.reduceAdd y0 (constant (F := Ideal) S_ .f32 0x00000000#32) reducesTo_S4x8x128_S_d0_1_2 h_S_ i)
      (constant (F := Ideal) S_ .f32 0x4C800000#32 i) = _
  rw [Ideal.hostDivf_def, constant_apply]
  refine congrArg (fun z => Ideal.div z (Ideal.ofBits .f32 0x4C800000#32)) ?_
  simp only [Host.reduceAdd, Ideal.hostReduceAdd_def]
  exact Ideal.hostReduceAdd_total reducesTo_S4x8x128_S_d0_1_2 (fun b => b.elim0) y0 _ i

/-! ## The output array after the run -/

/-- The output window's block index at point `t`, decided over the grid: row block `t / 16`, the whole of the other
    two axes. -/
theorem idx_facts4 : ∀ t : Fin cfg0.N, win0_4.index t (0 : Fin 3) = t.val / 16 ∧ win0_4.index t (1 : Fin 3) = 0
    ∧ win0_4.index t (2 : Fin 3) = 0 :=
  (by decide +kernel : ∀ t : Fin grid0.N, win0_4.index t (0 : Fin 3) = t.val / 16 ∧ win0_4.index t (1 : Fin 3) = 0
    ∧ win0_4.index t (2 : Fin 3) = 0)

/-- An index of the output array is in point `t`'s block iff each coordinate is in the block's range on its axis. -/
theorem mem_blk4 (t : Fin cfg0.N) (i : S4x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v3).slice (win0_4.rect t)).set ↔ _
  rw [View.set_slice_whole, Rect.mem_set_unit]
  exact Iff.rfl

/-- The last grid point of row block `k`. -/
def lastPt (k : Nat) (hk : k < 4) : Fin cfg0.N := ⟨16 * k + 15, by have : cfg0.N = 64 := N_0; omega⟩

/-- The array the write-backs assemble: row `i` is what the last point of row block `i` left in the staging block. -/
def G4 : Buf (Elt Ideal) ((cfg0.win 4).arr.view.loc (c.tc : Thread nD τ)) :=
  fun j : S4x8x128.Idx => (dats 0 c).after 4 (lastPt (j 0).val (j 0).isLt) (ix3 (0 : Fin 1) (j 1) (j 2))

/-- What a writing point writes back is its block of that array. -/
theorem flushed4_eq (t : Fin cfg0.N) (hf : (cfg0.win 4).flush t = true) :
    (dats 0 c).flushed 4 t = ((cfg0.win 4).blk t).view.read (Elt Ideal) (G4 dats c) := by
  have ht : t.val % 16 = 15 := (flush0_4 t).mp hf
  obtain ⟨e0, e1, e2⟩ := idx_facts4 t
  show (dats 0 c).after 4 t = _
  funext y
  show (dats 0 c).after 4 t y = G4 dats c (((cfg0.win 4).blk t).view.emb y)
  have hy0 : (y 0).val < 1 := (y 0).isLt
  have key : ∀ j : S4x8x128.Idx, (j 0).val = t.val / 16 → (j 1).val = (y 1).val → (j 2).val = (y 2).val →
      (dats 0 c).after 4 t y = G4 dats c j := by
    intro j h0 h1 h2
    have ep : lastPt (j 0).val (j 0).isLt = t := Fin.ext (by show 16 * (j 0).val + 15 = t.val; omega)
    have ey : (ix3 (0 : Fin 1) (j 1) (j 2) : S1x8x128.Idx) = (y : S1x8x128.Idx) := by
      funext a; apply Fin.ext
      match a with
      | ⟨0, _⟩ => show (0 : Nat) = (y 0).val; omega
      | ⟨1, _⟩ => exact h1
      | ⟨2, _⟩ => exact h2
    show _ = (dats 0 c).after 4 (lastPt (j 0).val (j 0).isLt) (ix3 (0 : Fin 1) (j 1) (j 2))
    rw [ep, ey]
  refine key _ ?_ ?_ ?_
  · show win0_4.index t (0 : Fin 3) * 1 + 1 * (y 0).val = t.val / 16; omega
  · show win0_4.index t (1 : Fin 3) * 8 + 1 * (y 1).val = (y 1).val; omega
  · show win0_4.index t (2 : Fin 3) * 128 + 1 * (y 2).val = (y 2).val; omega

/-- Every index of the output array is in the block of the last point of its row block, which writes back. -/
theorem cover4 (i : S4x8x128.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 128 := (i 2).isLt
  refine ⟨lastPt (i 0).val hi0, (flush0_4 _).mpr (by show (16 * (i 0).val + 15) % 16 = 15; omega), ?_⟩
  obtain ⟨e0, e1, e2⟩ := idx_facts4 (lastPt (i 0).val hi0)
  have e0' : win0_4.index (lastPt (i 0).val hi0) (0 : Fin 3) = (16 * (i 0).val + 15) / 16 := e0
  rw [mem_blk4]
  intro a
  match a with
  | ⟨0, _⟩ =>
    show win0_4.index (lastPt (i 0).val hi0) (0 : Fin 3) * 1 ≤ (i 0).val
      ∧ (i 0).val < win0_4.index (lastPt (i 0).val hi0) (0 : Fin 3) * 1 + 1
    omega
  | ⟨1, _⟩ =>
    show win0_4.index (lastPt (i 0).val hi0) (1 : Fin 3) * 8 ≤ (i 1).val
      ∧ (i 1).val < win0_4.index (lastPt (i 0).val hi0) (1 : Fin 3) * 8 + 8
    omega
  | ⟨2, _⟩ =>
    show win0_4.index (lastPt (i 0).val hi0) (2 : Fin 3) * 128 ≤ (i 2).val
      ∧ (i 2).val < win0_4.index (lastPt (i 0).val hi0) (2 : Fin 3) * 128 + 128
    omega

/-- The output array after the run, entry by entry: row `i` is the block written back at the last point of row
    block `i`. -/
theorem out_apply (i : Fin 4) (a : Fin 8) (b : Fin 128) :
    (dats 0 c).arrAt 4 cfg0.N (ix3 i a b)
      = (dats 0 c).after 4 (⟨16 * i.val + 15, by have := i.isLt; have : cfg0.N = 64 := N_0; omega⟩ : Fin cfg0.N)
          (ix3 (0 : Fin 1) a b) :=
  congrFun ((dats 0 c).arrAt_eq_of_cover 4 (G4 dats c) (flushed4_eq dats c) (cover4)) (ix3 i a b)

end Cert.KernelIdeal.Tail

end
-- ==== Proof.Regroup.lean ====
/-
  Regrouping the sum of all squared errors.

  The 4096 rows are 4 blocks of 1024 and the 16384 columns are 16 blocks of 1024, so a sum over every (row, column)
  is a sum over (row block, row in block, column block, column in block); addition being commutative and associative,
  the four sums may be taken in the order (row block, column in block, column block, row in block), which is the sum
  over row blocks of each row block's total.  A second fact: an array of shape 4 x 8 x 128 that is zero away from the
  entries (i, 0, 0) sums to the sum of those four entries.
-/
import Idealize.ShloMosaic.Lib.ValueIdx
import proofs.«115720_j51848845197512_2_alg».proof.Proof.Spec

noncomputable section

namespace Cert.Regroup

open Idealize.ShloMosaic Idealize.ShloMosaic.ValueIdx Cert.Spec

/-- A row number is a row block and a row inside it. -/
def rowEquiv : Fin 4 × Fin 1024 ≃ Fin 4096 where
  toFun p := rowOf p.1 p.2
  invFun n := (⟨n.val / 1024, by have := n.isLt; omega⟩, ⟨n.val % 1024, by omega⟩)
  left_inv p := by
    obtain ⟨i, r⟩ := p
    have hi := i.isLt
    have hr := r.isLt
    refine Prod.ext (Fin.ext ?_) (Fin.ext ?_)
    · show (i.val * 1024 + r.val) / 1024 = i.val
      omega
    · show (i.val * 1024 + r.val) % 1024 = r.val
      omega
  right_inv n := by
    refine Fin.ext ?_
    show n.val / 1024 * 1024 + n.val % 1024 = n.val
    omega

/-- A column number is a column block and a column inside it. -/
def colEquiv : Fin 16 × Fin 1024 ≃ Fin 16384 where
  toFun p := colOf p.1 p.2
  invFun n := (⟨n.val / 1024, by have := n.isLt; omega⟩, ⟨n.val % 1024, by omega⟩)
  left_inv p := by
    obtain ⟨j, l⟩ := p
    have hj := j.isLt
    have hl := l.isLt
    refine Prod.ext (Fin.ext ?_) (Fin.ext ?_)
    · show (j.val * 1024 + l.val) / 1024 = j.val
      omega
    · show (j.val * 1024 + l.val) % 1024 = l.val
      omega
  right_inv n := by
    refine Fin.ext ?_
    show n.val / 1024 * 1024 + n.val % 1024 = n.val
    omega

/-- A sum over the rows is the sum over the row blocks of the sums over each block's rows. -/
theorem sum_rows {M : Type*} [AddCommMonoid M] (g : Fin 4096 → M) :
    ∑ a : Fin 4096, g a = ∑ i : Fin 4, ∑ r : Fin 1024, g (rowOf i r) := by
  rw [← Equiv.sum_comp rowEquiv g, Fintype.sum_prod_type]
  rfl

/-- A sum over the columns is the sum over the column blocks of the sums over each block's columns. -/
theorem sum_cols {M : Type*} [AddCommMonoid M] (g : Fin 16384 → M) :
    ∑ b : Fin 16384, g b = ∑ j : Fin 16, ∑ l : Fin 1024, g (colOf j l) := by
  rw [← Equiv.sum_comp colEquiv g, Fintype.sum_prod_type]
  rfl

/-- The sum over every (row, column), taken block by block with the rows of a block innermost. -/
theorem sum_blocks {M : Type*} [AddCommMonoid M] (f : Fin 4096 → Fin 16384 → M) :
    ∑ j : (⟨2, ![4096, 16384]⟩ : Shape).Idx, f (j 0) (j 1)
      = ∑ i : Fin 4, ∑ l : Fin 1024, ∑ jj : Fin 16, ∑ r : Fin 1024, f (rowOf i r) (colOf jj l) := by
  have h1 : ∑ j : (⟨2, ![4096, 16384]⟩ : Shape).Idx, f (j 0) (j 1)
      = ∑ a : Fin 4096, ∑ b : Fin 16384, f a b :=
    sum_idx2 (n0 := 4096) (n1 := 16384) (fun j => f (j 0) (j 1))
  rw [h1, sum_rows]
  refine Finset.sum_congr rfl fun i _ => ?_
  have h2 : ∀ r : Fin 1024, ∑ b : Fin 16384, f (rowOf i r) b
      = ∑ jj : Fin 16, ∑ l : Fin 1024, f (rowOf i r) (colOf jj l) := fun r => sum_cols _
  rw [Finset.sum_congr rfl fun r _ => h2 r]
  calc ∑ r : Fin 1024, ∑ jj : Fin 16, ∑ l : Fin 1024, f (rowOf i r) (colOf jj l)
      = ∑ r : Fin 1024, ∑ l : Fin 1024, ∑ jj : Fin 16, f (rowOf i r) (colOf jj l) :=
        Finset.sum_congr rfl fun r _ => Finset.sum_comm
    _ = ∑ l : Fin 1024, ∑ r : Fin 1024, ∑ jj : Fin 16, f (rowOf i r) (colOf jj l) := Finset.sum_comm
    _ = ∑ l : Fin 1024, ∑ jj : Fin 16, ∑ r : Fin 1024, f (rowOf i r) (colOf jj l) :=
        Finset.sum_congr rfl fun l _ => Finset.sum_comm

/-- The total of the squared errors is the sum of the four row blocks' totals. -/
theorem total_eq_blocks (X : SX.Idx → EReal) (W : SW.Idx → EReal) (T : ST.Idx → EReal) (B : SB.Idx → EReal) :
    total X W T B = ∑ i : Fin 4, rowBlockTotal X W T B i := by
  unfold total rowBlockTotal blockLane
  exact sum_blocks (sqErr X W T B)

/-- A 4 x 8 x 128 index set is the product of its three coordinate ranges. -/
def idxEquiv3 : (⟨3, ![4, 8, 128]⟩ : Shape).Idx ≃ Fin 4 × Fin 8 × Fin 128 where
  toFun j := (j 0, j 1, j 2)
  invFun p := ix3 p.1 p.2.1 p.2.2
  left_inv j := (eq_ix3 j).symm
  right_inv _ := rfl

/-- An array of shape 4 x 8 x 128 whose entries away from (i, 0, 0) are zero sums to the sum of its entries (i, 0, 0). -/
theorem sum_out (o : (⟨3, ![4, 8, 128]⟩ : Shape).Idx → EReal) (g : Fin 4 → EReal)
    (h0 : ∀ i : Fin 4, o (ix3 i (0 : Fin 8) (0 : Fin 128)) = g i)
    (hz : ∀ (i : Fin 4) (a : Fin 8) (b : Fin 128), (a.val ≠ 0 ∨ b.val ≠ 0) → o (ix3 i a b) = 0) :
    ∑ j : (⟨3, ![4, 8, 128]⟩ : Shape).Idx, o j = ∑ i : Fin 4, g i := by
  have h1 : ∑ j : (⟨3, ![4, 8, 128]⟩ : Shape).Idx, o j
      = ∑ i : Fin 4, ∑ a : Fin 8, ∑ b : Fin 128, o (ix3 i a b) := by
    rw [← Equiv.sum_comp idxEquiv3.symm o, Fintype.sum_prod_type]
    refine Finset.sum_congr rfl fun i _ => ?_
    rw [Fintype.sum_prod_type]
    rfl
  rw [h1]
  refine Finset.sum_congr rfl fun i _ => ?_
  rw [Finset.sum_eq_single (0 : Fin 8), Finset.sum_eq_single (0 : Fin 128)]
  · exact h0 i
  · intro b _ hb
    exact hz i 0 b (Or.inr fun h => hb (Fin.ext h))
  · intro h; exact absurd (Finset.mem_univ _) h
  · intro a _ ha
    exact Finset.sum_eq_zero fun b _ => hz i a b (Or.inl fun h => ha (Fin.ext h))
  · intro h; exact absurd (Finset.mem_univ _) h

end Cert.Regroup

end
-- ==== Proof.KernelIdealResult.lean ====
/-
  The idealized kernel's result is the mean squared error.

  After the region, row i of the [4, 8, 128] output array is the block written back at the last point of row i of the
  grid: entry (i,0,0) holds row block i's total of squared errors and every other entry is zero.  So the host's sum
  over the whole array is the sum of the four row-block totals, which is the sum of all squared errors regrouped by
  blocks and lanes (only commutativity and associativity of addition on the extended reals are used); the host then
  adds the zero literal and divides by the float 2^26, the same two words the reference prints.
-/
import proofs.«115720_j51848845197512_2_alg».proof.Proof.KernelIdealContents
import proofs.«115720_j51848845197512_2_alg».proof.Proof.Accumulate
import proofs.«115720_j51848845197512_2_alg».proof.Proof.Tail
import proofs.«115720_j51848845197512_2_alg».proof.Proof.Regroup

set_option maxRecDepth 16384

noncomputable section

namespace Cert.KernelIdeal.Result

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array after the run sums to the total of all squared errors. -/
theorem out_sum (c : Dev nD) :
    Finset.sum (M := EReal) Finset.univ (fun j : S4x8x128.Idx => (Body.dats m 0 c).arrAt 4 cfg0.N j)
      = Cert.Spec.total (argX m c) (argW m c) (argT m c) (argB m c) := by
  rw [Cert.Regroup.total_eq_blocks]
  refine Cert.Regroup.sum_out _ _ (fun i => ?_) (fun i a b h => ?_)
  · rw [Tail.out_apply (Body.dats m) c i 0 0, Body.after_4]
    exact Accumulate.row_total m c (Body.stAt m c) (Body.st_first m c) (Body.st_middle m c) (Body.st_last m c) i
  · rw [Tail.out_apply (Body.dats m) c i a b, Body.after_4]
    exact Accumulate.row_zero m c (Body.stAt m c) (Body.st_first m c) (Body.st_middle m c) (Body.st_last m c) i a b h

/-- What the host lines after the region leave in the result buffer: the mean squared error of the arguments. -/
theorem result_eq (c : Dev nD) :
    Pipeline.afterTail₀ cfgs (Body.dats m) 0 (V0 m) [hostOps1] c main_v5
      = Cert.Spec.mse (argX m c) (argW m c) (argT m c) (argB m c) := by
  rw [Tail.tail_result m (Body.dats m) c, out_sum]
  rfl

/-- Every weakly fair execution of the idealized kernel terminates with the result at the mean squared error of its
    arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v5) = Cert.Spec.mse (argX m c) (argW m c) (argT m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (Body.dats m) c),
      ((h c).2 main_arg1 (Pipeline.mem_restRefs_of main_arg1 (by decide) (by decide))).trans (W_main_arg1 m (Body.dats m) c),
      ((h c).1 2).trans ((((Body.dats m) 0 c).arrAt_in 2 rfl _).trans ((Body.A_eq m c 2).trans (V_main_arg2 m c))),
      ((h c).2 main_arg3 (Pipeline.mem_restRefs_of main_arg3 (by decide) (by decide))).trans (W_main_arg3 m (Body.dats m) c)⟩)
    (Body.run_main m ρ)

end Cert.KernelIdeal.Result

end
-- ==== Proof.RefValue.lean ====
/-
  The reference's result read at Ideal: the mean over all (row, column) of the squared error
  (sum over h of x (n,h) * w (v,h) + bias v - target (n,v))^2, as one sum over the 4096 x 16384 entries
  divided by 2^26.
-/
import proofs.«115720_j51848845197512_2_alg».proof.Defs
import proofs.«115720_j51848845197512_2_alg».proof.Proof.Gen.ReferenceIdeal.Run
import proofs.«115720_j51848845197512_2_alg».proof.Proof.Gen.ReferenceIdeal.Read
import proofs.«115720_j51848845197512_2_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

/-- The product's left operand is read at (row of the entry, h). -/
theorem lidx_eq (a : Fin 4096) (b : Fin 16384) (k : Fin 1024) :
    lidx_main_v0 (ix2 a b) k = ix2 a k :=
  funext fun d => Fin.ext (by match d with | ⟨0, _⟩ => rfl | ⟨1, _⟩ => rfl)

/-- The product's right operand is read at (column of the entry, h). -/
theorem ridx_eq (a : Fin 4096) (b : Fin 16384) (k : Fin 1024) :
    ridx_main_v0 (ix2 a b) k = ix2 b k :=
  funext fun d => Fin.ext (by match d with | ⟨0, _⟩ => rfl | ⟨1, _⟩ => rfl)

/-- The bias, broadcast twice, is read at the column of the entry. -/
theorem bidx_eq (a : Fin 4096) (b : Fin 16384) :
    idx_main_v1 (idx_main_v2 (ix2 a b)) = ix1 b :=
  funext fun d => Fin.ext (by match d with | ⟨0, _⟩ => rfl)

/-- Each entry of the squared array is the squared error at its row and column. -/
theorem sq_apply (x0 : (⟨S4096x1024, .f32⟩ : BufTy).Contents (Elt Ideal)) (x1 : (⟨S16384x1024, .f32⟩ : BufTy).Contents (Elt Ideal))
    (x2 : (⟨S4096x16384, .f32⟩ : BufTy).Contents (Elt Ideal)) (x3 : (⟨S16384, .f32⟩ : BufTy).Contents (Elt Ideal))
    (a : Fin 4096) (b : Fin 16384) :
    val_main_v5 (F := Ideal) x0 x1 x2 x3 (ix2 a b) = Cert.Spec.sqErr x0 x1 x2 x3 a b := by
  rw [val_main_v5_apply, val_main_v4_apply, val_main_v3_apply, val_main_v2_apply, val_main_v1_apply, val_main_v0_apply]
  simp only [Ideal.addf_def, Ideal.subf_def, Ideal.mulf_def, lidx_eq, ridx_eq, bidx_eq]
  rfl

/-- The reference's result is the mean squared error. -/
theorem ref_eq (x0 : (⟨S4096x1024, .f32⟩ : BufTy).Contents (Elt Ideal)) (x1 : (⟨S16384x1024, .f32⟩ : BufTy).Contents (Elt Ideal))
    (x2 : (⟨S4096x16384, .f32⟩ : BufTy).Contents (Elt Ideal)) (x3 : (⟨S16384, .f32⟩ : BufTy).Contents (Elt Ideal)) :
    val_main_v7 (F := Ideal) x0 x1 x2 x3 = Cert.Spec.mse x0 x1 x2 x3 := by
  funext i
  rw [val_main_v7_apply, val_main_v6_apply, val_main_cst_apply, val_main_cst_0_apply]
  simp only [Ideal.hostDivf_def, Ideal.ofBits_def]
  unfold Cert.Spec.mse Cert.Spec.total
  have hs : ∀ j : S4096x16384.Idx,
      val_main_v5 (F := Ideal) x0 x1 x2 x3 j = Cert.Spec.sqErr x0 x1 x2 x3 (j 0) (j 1) := fun j =>
    (congrArg (val_main_v5 (F := Ideal) x0 x1 x2 x3) (eq_ix2 j)).trans (sq_apply x0 x1 x2 x3 (j 0) (j 1))
  rw [Finset.sum_congr rfl fun j _ => hs j]

end Cert.ReferenceIdeal.RefValue

end
-- ==== Proof.lean ====
/-
  The mean squared error of a linear layer, fused: the kernel against its reference.

  The kernel computes mean((x @ w.T + b - t)^2) over a 4 x 16 grid of 1024 x 1024 blocks: each point adds its block's
  column sums of squared errors into a carried accumulator, the last point of a row of blocks sums the accumulator's
  lanes into one entry of a zeroed output block, and the host sums the output and divides by 2^26.  The reference is
  the mean of the same squares.  At the extended reals both are zero plus the sum of all squared errors, divided by the
  float 2^26 (Proof/Spec.lean): the kernel's regrouping of the sum needs only that addition is commutative and
  associative, so the precondition is never opened.

  The three frames: the kernel's and the idealized kernel's from the region's run with the accumulator tracked point
  by point (Proof/KernelFrame.lean, Proof/KernelIdealFrame.lean: one body run per control case); the reference's from
  its run.  The ideal pass rewrote nothing, so the idealization claim is trivial.  The value claim: the idealized
  kernel's run ends at the specification (Proof/KernelIdealResult.lean), the reference's run at the same
  (Proof/RefValue.lean), on arguments that agree.
-/
import proofs.«115720_j51848845197512_2_alg».proof.Defs
import proofs.«115720_j51848845197512_2_alg».proof.Proof.Gen.Kernel
import proofs.«115720_j51848845197512_2_alg».proof.Proof.Gen.KernelIdeal
import proofs.«115720_j51848845197512_2_alg».proof.Proof.Gen.ReferenceIdeal
import proofs.«115720_j51848845197512_2_alg».proof.Proof.Gen.Pre_finite_inputs
import proofs.«115720_j51848845197512_2_alg».proof.Proof.KernelFrame
import proofs.«115720_j51848845197512_2_alg».proof.Proof.KernelIdealResult
import proofs.«115720_j51848845197512_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the mean squared error of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.mse (Cert.KernelIdeal.Blocks.argX m c) (Cert.KernelIdeal.Blocks.argW m c) (Cert.KernelIdeal.Blocks.argT m c) (Cert.KernelIdeal.Blocks.argB m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
